-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v8)) (v5 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_arg1) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_v17) = v3 c
          ∧ r.2.mem ((c.tc : Thread Cert.ReferenceIdeal.nD Cert.ReferenceIdeal.τ).loc Cert.ReferenceIdeal.main_v21) = v4 c
          ∧ r.2.mem ((c.tc : Thread Cert.ReferenceIdeal.nD Cert.ReferenceIdeal.τ).loc Cert.ReferenceIdeal.main_arg1) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1048576x3 : Shape := ⟨3, ![2, 1048576, 3]⟩
abbrev S2x1048576 : Shape := ⟨2, ![2, 1048576]⟩
abbrev S2x1048576x82 : Shape := ⟨3, ![2, 1048576, 82]⟩
abbrev S_ : Shape := ⟨0, ![]⟩

class Facts : Prop where
  bcast_S_S2x1048576x3 : S_.BroadcastsInDim S2x1048576x3 (![] : Fin 0 → Fin S2x1048576x3.rank)
  reducesTo_S2x1048576x3_S_d0_1_2 : S2x1048576x3.ReducesTo [0, 1, 2] S_
  h_S_ : 0 < S_.numel
  bcast_S_S2x1048576 : S_.BroadcastsInDim S2x1048576 (![] : Fin 0 → Fin S2x1048576.rank)
  reducesTo_S2x1048576_S_d0_1 : S2x1048576.ReducesTo [0, 1] S_
  bcast_S_S2x1048576x82 : S_.BroadcastsInDim S2x1048576x82 (![] : Fin 0 → Fin S2x1048576x82.rank)
  reducesTo_S2x1048576x82_S_d0_1_2 : S2x1048576x82.ReducesTo [0, 1, 2] S_

variable [Facts]

def fn {F : FTy → Type} [FloatOps F] (main_arg0 : FVec F S2x1048576x3 .f32) (main_arg1 : FVec F S2x1048576 .f32) (main_arg2 : FVec F S2x1048576x82 .f32) : IVec S_ 1 :=
  let main_v0 : FVec F S2x1048576x3 .f32 := Host.absf main_arg0
  let main_cst : FVec F S_ .f32 := constant S_ .f32 0x7F800000#32
  let main_v1 : FVec F S2x1048576x3 .f32 := broadcastInDim S2x1048576x3 ![] bcast_S_S2x1048576x3 main_cst
  let main_v2 : IVec S2x1048576x3 1 := cmpf .olt main_v0 main_v1
  let main_c : IVec S_ 1 := constantI S_ 1 1#1
  let main_v3 : IVec S_ 1 := (fun x v => Host.reduce IntOp.andi x v reducesTo_S2x1048576x3_S_d0_1_2 h_S_) main_v2 main_c
  let main_v4 : FVec F S2x1048576 .f32 := Host.absf main_arg1
  let main_cst_0 : FVec F S_ .f32 := constant S_ .f32 0x7F800000#32
  let main_v5 : FVec F S2x1048576 .f32 := broadcastInDim S2x1048576 ![] bcast_S_S2x1048576 main_cst_0
  let main_v6 : IVec S2x1048576 1 := cmpf .olt main_v4 main_v5
  let main_c_1 : IVec S_ 1 := constantI S_ 1 1#1
  let main_v7 : IVec S_ 1 := (fun x v => Host.reduce IntOp.andi x v reducesTo_S2x1048576_S_d0_1 h_S_) main_v6 main_c_1
  let main_v8 : IVec S_ 1 := andi main_v3 main_v7
  let main_v9 : FVec F S2x1048576x82 .f32 := Host.absf main_arg2
  let main_cst_2 : FVec F S_ .f32 := constant S_ .f32 0x7F800000#32
  let main_v10 : FVec F S2x1048576x82 .f32 := broadcastInDim S2x1048576x82 ![] bcast_S_S2x1048576x82 main_cst_2
  let main_v11 : IVec S2x1048576x82 1 := cmpf .olt main_v9 main_v10
  let main_c_3 : IVec S_ 1 := constantI S_ 1 1#1
  let main_v12 : IVec S_ 1 := (fun x v => Host.reduce IntOp.andi x v reducesTo_S2x1048576x82_S_d0_1_2 h_S_) main_v11 main_c_3
  let main_v13 : IVec S_ 1 := andi main_v8 main_v12
  main_v13
-- ==== Kernel.lean ====
abbrev S2x1048576x3 : Shape := ⟨3, ![2, 1048576, 3]⟩
abbrev S2x1048576 : Shape := ⟨2, ![2, 1048576]⟩
abbrev S2x1048576x82 : Shape := ⟨3, ![2, 1048576, 82]⟩
abbrev S1x75 : Shape := ⟨2, ![1, 75]⟩
abbrev S2097152x82 : Shape := ⟨2, ![2097152, 82]⟩
abbrev S2097152x16 : Shape := ⟨2, ![2097152, 16]⟩
abbrev S2097152x75 : Shape := ⟨2, ![2097152, 75]⟩
abbrev S4096x82 : Shape := ⟨2, ![4096, 82]⟩
abbrev S4096x16 : Shape := ⟨2, ![4096, 16]⟩
abbrev S4096x75 : Shape := ⟨2, ![4096, 75]⟩
abbrev S4096x7 : Shape := ⟨2, ![4096, 7]⟩
abbrev S7x4096 : Shape := ⟨2, ![7, 4096]⟩
abbrev S3x4096 : Shape := ⟨2, ![3, 4096]⟩
abbrev S4x4096 : Shape := ⟨2, ![4, 4096]⟩
abbrev S4096 : Shape := ⟨1, ![4096]⟩
abbrev S1x4096 : Shape := ⟨2, ![1, 4096]⟩
abbrev S16x4096 : Shape := ⟨2, ![16, 4096]⟩
abbrev S2097152x9 : Shape := ⟨2, ![2097152, 9]⟩
abbrev S2097152x3 : Shape := ⟨2, ![2097152, 3]⟩
abbrev S2097152x4 : Shape := ⟨2, ![2097152, 4]⟩
abbrev S2x1048576x3x3 : Shape := ⟨4, ![2, 1048576, 3, 3]⟩
abbrev S2x1048576x4 : Shape := ⟨3, ![2, 1048576, 4]⟩
abbrev S2x1048576x3x25 : Shape := ⟨4, ![2, 1048576, 3, 25]⟩

abbrev nBuf : Space → Nat
  | .hbm => 14
  | .vmem => 7
  | .smem => 0
  | _ => 0

abbrev bufTy : (tb : Table) → Fin (tcTables nBuf tb) → BufTy
  | .hbm, ⟨0, _⟩ => ⟨S2x1048576x3, .f32⟩
  | .hbm, ⟨1, _⟩ => ⟨S2x1048576, .f32⟩
  | .hbm, ⟨2, _⟩ => ⟨S2x1048576x82, .f32⟩
  | .hbm, ⟨3, _⟩ => ⟨S1x75, .f32⟩
  | .hbm, ⟨4, _⟩ => ⟨S2097152x82, .f32⟩
  | .hbm, ⟨5, _⟩ => ⟨S2097152x16, .f32⟩
  | .hbm, ⟨6, _⟩ => ⟨S2097152x75, .f32⟩
  | .hbm, ⟨7, _⟩ => ⟨S2097152x9, .f32⟩
  | .hbm, ⟨8, _⟩ => ⟨S2097152x3, .f32⟩
  | .hbm, ⟨9, _⟩ => ⟨S2097152x4, .f32⟩
  | .hbm, ⟨10, _⟩ => ⟨S2x1048576x3x3, .f32⟩
  | .hbm, ⟨11, _⟩ => ⟨S2x1048576x3, .f32⟩
  | .hbm, ⟨12, _⟩ => ⟨S2x1048576x4, .f32⟩
  | .hbm, ⟨13, _⟩ => ⟨S2x1048576x3x25, .f32⟩
  | .local _ .vmem, ⟨0, _⟩ => ⟨S4096x82, .f32⟩
  | .local _ .vmem, ⟨1, _⟩ => ⟨S4096x82, .f32⟩
  | .local _ .vmem, ⟨2, _⟩ => ⟨S1x75, .f32⟩
  | .local _ .vmem, ⟨3, _⟩ => ⟨S4096x16, .f32⟩
  | .local _ .vmem, ⟨4, _⟩ => ⟨S4096x16, .f32⟩
  | .local _ .vmem, ⟨5, _⟩ => ⟨S4096x75, .f32⟩
  | .local _ .vmem, ⟨6, _⟩ => ⟨S4096x75, .f32⟩
  | _, _ => ⟨S2x1048576x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x82 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x75 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x75 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2x1048576x82_S2097152x82 : S2x1048576x82.ShapeCasts S2097152x82
  inb_S4096x82_S4096x82_0_0 : ∀ a, (![0, 0] : Fin 2 → Nat) a + S4096x82.size a ≤ S4096x82.size a
  h_S4096x82 : 0 < S4096x82.numel
  shapeCasts_S4096x82_S4096x82 : S4096x82.ShapeCasts S4096x82
  slices_S4096x82_o0_0_S4096x7 : S4096x82.Slices ![0, 0] S4096x7
  transposes_S4096x7_p1_0_S7x4096 : S4096x7.Transposes [1, 0] S7x4096
  slices_S7x4096_o0_0_S3x4096 : S7x4096.Slices ![0, 0] S3x4096
  slices_S7x4096_o3_0_S4x4096 : S7x4096.Slices ![3, 0] S4x4096
  reduces_S4x4096_S4096 : S4x4096.Reduces [0] S4096
  shapeCasts_S4096_S1x4096 : S4096.ShapeCasts S1x4096
  broadcasts_S1x4096_S4x4096 : S1x4096.Broadcasts S4x4096
  slices_S4x4096_o0_0_S1x4096 : S4x4096.Slices ![0, 0] S1x4096
  slices_S4x4096_o1_0_S1x4096 : S4x4096.Slices ![1, 0] S1x4096
  slices_S4x4096_o2_0_S1x4096 : S4x4096.Slices ![2, 0] S1x4096
  slices_S4x4096_o3_0_S1x4096 : S4x4096.Slices ![3, 0] S1x4096
  slices_S3x4096_o0_0_S1x4096 : S3x4096.Slices ![0, 0] S1x4096
  slices_S3x4096_o1_0_S1x4096 : S3x4096.Slices ![1, 0] S1x4096
  slices_S3x4096_o2_0_S1x4096 : S3x4096.Slices ![2, 0] S1x4096
  concatenates_S1x4096_S1x4096_S1x4096_S1x4096_S1x4096_S1x4096_S1x4096_S1x4096_S1x4096_S1x4096_S1x4096_S1x4096_S1x4096_S1x4096_S1x4096_S1x4096_S16x4096_d0 : Shape.Concatenates [S1x4096, S1x4096, S1x4096, S1x4096, S1x4096, S1x4096, S1x4096, S1x4096, S1x4096, S1x4096, S1x4096, S1x4096, S1x4096, S1x4096, S1x4096, S1x4096] S16x4096 0
  transposes_S16x4096_p1_0_S4096x16 : S16x4096.Transposes [1, 0] S4096x16
  slices_S4096x82_o0_7_S4096x75 : S4096x82.Slices ![0, 7] S4096x75
  inb_S1x75_S1x75_0_0 : ∀ a, (![0, 0] : Fin 2 → Nat) a + S1x75.size a ≤ S1x75.size a
  h_S1x75 : 0 < S1x75.numel
  broadcasts_S1x75_S4096x75 : S1x75.Broadcasts S4096x75
  inb_S4096x16_S4096x16_0_0 : ∀ a, (![0, 0] : Fin 2 → Nat) a + S4096x16.size a ≤ S4096x16.size a
  h_S4096x16 : 0 < S4096x16.numel
  inb_S4096x75_S4096x75_0_0 : ∀ a, (![0, 0] : Fin 2 → Nat) a + S4096x75.size a ≤ S4096x75.size a
  h_S4096x75 : 0 < S4096x75.numel
  slices_S2097152x16_S2097152x9_0_0 : S2097152x16.Slices ![0, 0] S2097152x9
  slices_S2097152x16_S2097152x3_0_9 : S2097152x16.Slices ![0, 9] S2097152x3
  slices_S2097152x16_S2097152x4_0_12 : S2097152x16.Slices ![0, 12] S2097152x4
  shapeCasts_S2097152x9_S2x1048576x3x3 : S2097152x9.ShapeCasts S2x1048576x3x3
  shapeCasts_S2097152x3_S2x1048576x3 : S2097152x3.ShapeCasts S2x1048576x3
  shapeCasts_S2097152x4_S2x1048576x4 : S2097152x4.ShapeCasts S2x1048576x4
  shapeCasts_S2097152x75_S2x1048576x3x25 : S2097152x75.ShapeCasts S2x1048576x3x25
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x82.size a ≤ S2097152x82.size a
  hwx0_0 : ∀ i : grid0.Coords, EltTy.bits .f32 = 32 ∨ (Rect.block (s := S2097152x82) S4096x82.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x75.size a ≤ S1x75.size a
  hwx0_1 : ∀ i : grid0.Coords, EltTy.bits .f32 = 32 ∨ (Rect.block (s := S1x75) S1x75.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x16.size a ≤ S2097152x16.size a
  hwx0_2 : ∀ i : grid0.Coords, EltTy.bits .f32 = 32 ∨ (Rect.block (s := S2097152x16) S4096x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x75.size a ≤ S2097152x75.size a
  hwx0_3 : ∀ i : grid0.Coords, EltTy.bits .f32 = 32 ∨ (Rect.block (s := S2097152x75) S4096x75.size (cc0_transform_3 i) (hinb0_3 i)).WholeWords (EltTy.packing .f32)

variable [Facts₀]

abbrev win0_0 : Pipeline.Window sig grid0 :=
  Pipeline.Window.ofSpec (Memref.whole main_v0) S4096x82.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_cst) S1x75.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S4096x16.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S4096x75.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x1048576x3 : Shape := ⟨3, ![2, 1048576, 3]⟩
abbrev S2x1048576 : Shape := ⟨2, ![2, 1048576]⟩
abbrev S2x1048576x82 : Shape := ⟨3, ![2, 1048576, 82]⟩
abbrev S25 : Shape := ⟨1, ![25]⟩
abbrev S2x1048576x4 : Shape := ⟨3, ![2, 1048576, 4]⟩
abbrev S2x1048576x75 : Shape := ⟨3, ![2, 1048576, 75]⟩
abbrev S_ : Shape := ⟨0, ![]⟩
abbrev S2x1048576x1 : Shape := ⟨3, ![2, 1048576, 1]⟩
abbrev S2x1048576x3x25 : Shape := ⟨4, ![2, 1048576, 3, 25]⟩
abbrev S1x1x1x25 : Shape := ⟨4, ![1, 1, 1, 25]⟩
abbrev S2x1048576x1x3 : Shape := ⟨4, ![2, 1048576, 1, 3]⟩
abbrev S2x1048576x3x3 : Shape := ⟨4, ![2, 1048576, 3, 3]⟩

abbrev nBuf : Space → Nat
  | .hbm => 126
  | .vmem => 0
  | .smem => 0
  | _ => 0

abbrev bufTy : (tb : Table) → Fin (tcTables nBuf tb) → BufTy
  | .hbm, ⟨0, _⟩ => ⟨S2x1048576x3, .f32⟩
  | .hbm, ⟨1, _⟩ => ⟨S2x1048576, .f32⟩
  | .hbm, ⟨2, _⟩ => ⟨S2x1048576x82, .f32⟩
  | .hbm, ⟨3, _⟩ => ⟨S25, .f32⟩
  | .hbm, ⟨4, _⟩ => ⟨S2x1048576x3, .f32⟩
  | .hbm, ⟨5, _⟩ => ⟨S2x1048576x4, .f32⟩
  | .hbm, ⟨6, _⟩ => ⟨S2x1048576x75, .f32⟩
  | .hbm, ⟨7, _⟩ => ⟨S2x1048576x3, .f32⟩
  | .hbm, ⟨8, _⟩ => ⟨S2x1048576x3, .f32⟩
  | .hbm, ⟨9, _⟩ => ⟨S_, .f32⟩
  | .hbm, ⟨10, _⟩ => ⟨S2x1048576x3, .f32⟩
  | .hbm, ⟨11, _⟩ => ⟨S2x1048576x3, .f32⟩
  | .hbm, ⟨12, _⟩ => ⟨S_, .f32⟩
  | .hbm, ⟨13, _⟩ => ⟨S2x1048576x3, .f32⟩
  | .hbm, ⟨14, _⟩ => ⟨S2x1048576x3, .f32⟩
  | .hbm, ⟨15, _⟩ => ⟨S_, .f32⟩
  | .hbm, ⟨16, _⟩ => ⟨S2x1048576x3, .f32⟩
  | .hbm, ⟨17, _⟩ => ⟨S2x1048576x3, .f32⟩
  | .hbm, ⟨18, _⟩ => ⟨S_, .f32⟩
  | .hbm, ⟨19, _⟩ => ⟨S2x1048576x3, .f32⟩
  | .hbm, ⟨20, _⟩ => ⟨S2x1048576x3, .f32⟩
  | .hbm, ⟨21, _⟩ => ⟨S2x1048576x4, .f32⟩
  | .hbm, ⟨22, _⟩ => ⟨S_, .f32⟩
  | .hbm, ⟨23, _⟩ => ⟨S2x1048576, .f32⟩
  | .hbm, ⟨24, _⟩ => ⟨S2x1048576x1, .f32⟩
  | .hbm, ⟨25, _⟩ => ⟨S2x1048576x1, .f32⟩
  | .hbm, ⟨26, _⟩ => ⟨S_, .f32⟩
  | .hbm, ⟨27, _⟩ => ⟨S2x1048576x1, .f32⟩
  | .hbm, ⟨28, _⟩ => ⟨S2x1048576x1, .f32⟩
  | .hbm, ⟨29, _⟩ => ⟨S2x1048576x4, .f32⟩
  | .hbm, ⟨30, _⟩ => ⟨S2x1048576x4, .f32⟩
  | .hbm, ⟨31, _⟩ => ⟨S2x1048576x3x25, .f32⟩
  | .hbm, ⟨32, _⟩ => ⟨S1x1x1x25, .f32⟩
  | .hbm, ⟨33, _⟩ => ⟨S2x1048576x3x25, .f32⟩
  | .hbm, ⟨34, _⟩ => ⟨S2x1048576x3x25, .f32⟩
  | .hbm, ⟨35, _⟩ => ⟨S2x1048576x1, .f32⟩
  | .hbm, ⟨36, _⟩ => ⟨S2x1048576, .f32⟩
  | .hbm, ⟨37, _⟩ => ⟨S2x1048576x1, .f32⟩
  | .hbm, ⟨38, _⟩ => ⟨S2x1048576, .f32⟩
  | .hbm, ⟨39, _⟩ => ⟨S2x1048576x1, .f32⟩
  | .hbm, ⟨40, _⟩ => ⟨S2x1048576, .f32⟩
  | .hbm, ⟨41, _⟩ => ⟨S2x1048576x1, .f32⟩
  | .hbm, ⟨42, _⟩ => ⟨S2x1048576, .f32⟩
  | .hbm, ⟨43, _⟩ => ⟨S2x1048576, .f32⟩
  | .hbm, ⟨44, _⟩ => ⟨S2x1048576, .f32⟩
  | .hbm, ⟨45, _⟩ => ⟨S2x1048576, .f32⟩
  | .hbm, ⟨46, _⟩ => ⟨S_, .f32⟩
  | .hbm, ⟨47, _⟩ => ⟨S2x1048576, .f32⟩
  | .hbm, ⟨48, _⟩ => ⟨S2x1048576, .f32⟩
  | .hbm, ⟨49, _⟩ => ⟨S_, .f32⟩
  | .hbm, ⟨50, _⟩ => ⟨S2x1048576, .f32⟩
  | .hbm, ⟨51, _⟩ => ⟨S2x1048576, .f32⟩
  | .hbm, ⟨52, _⟩ => ⟨S2x1048576, .f32⟩
  | .hbm, ⟨53, _⟩ => ⟨S2x1048576, .f32⟩
  | .hbm, ⟨54, _⟩ => ⟨S2x1048576, .f32⟩
  | .hbm, ⟨55, _⟩ => ⟨S_, .f32⟩
  | .hbm, ⟨56, _⟩ => ⟨S2x1048576, .f32⟩
  | .hbm, ⟨57, _⟩ => ⟨S2x1048576, .f32⟩
  | .hbm, ⟨58, _⟩ => ⟨S2x1048576, .f32⟩
  | .hbm, ⟨59, _⟩ => ⟨S2x1048576, .f32⟩
  | .hbm, ⟨60, _⟩ => ⟨S2x1048576, .f32⟩
  | .hbm, ⟨61, _⟩ => ⟨S_, .f32⟩
  | .hbm, ⟨62, _⟩ => ⟨S2x1048576, .f32⟩
  | .hbm, ⟨63, _⟩ => ⟨S2x1048576, .f32⟩
  | .hbm, ⟨64, _⟩ => ⟨S2x1048576x1, .f32⟩
  | .hbm, ⟨65, _⟩ => ⟨S2x1048576x1, .f32⟩
  | .hbm, ⟨66, _⟩ => ⟨S2x1048576x1, .f32⟩
  | .hbm, ⟨67, _⟩ => ⟨S2x1048576x3, .f32⟩
  | .hbm, ⟨68, _⟩ => ⟨S2x1048576, .f32⟩
  | .hbm, ⟨69, _⟩ => ⟨S2x1048576, .f32⟩
  | .hbm, ⟨70, _⟩ => ⟨S2x1048576, .f32⟩
  | .hbm, ⟨71, _⟩ => ⟨S_, .f32⟩
  | .hbm, ⟨72, _⟩ => ⟨S2x1048576, .f32⟩
  | .hbm, ⟨73, _⟩ => ⟨S2x1048576, .f32⟩
  | .hbm, ⟨74, _⟩ => ⟨S2x1048576, .f32⟩
  | .hbm, ⟨75, _⟩ => ⟨S2x1048576, .f32⟩
  | .hbm, ⟨76, _⟩ => ⟨S2x1048576, .f32⟩
  | .hbm, ⟨77, _⟩ => ⟨S_, .f32⟩
  | .hbm, ⟨78, _⟩ => ⟨S2x1048576, .f32⟩
  | .hbm, ⟨79, _⟩ => ⟨S2x1048576, .f32⟩
  | .hbm, ⟨80, _⟩ => ⟨S_, .f32⟩
  | .hbm, ⟨81, _⟩ => ⟨S2x1048576, .f32⟩
  | .hbm, ⟨82, _⟩ => ⟨S2x1048576, .f32⟩
  | .hbm, ⟨83, _⟩ => ⟨S2x1048576, .f32⟩
  | .hbm, ⟨84, _⟩ => ⟨S2x1048576, .f32⟩
  | .hbm, ⟨85, _⟩ => ⟨S2x1048576, .f32⟩
  | .hbm, ⟨86, _⟩ => ⟨S_, .f32⟩
  | .hbm, ⟨87, _⟩ => ⟨S2x1048576, .f32⟩
  | .hbm, ⟨88, _⟩ => ⟨S2x1048576, .f32⟩
  | .hbm, ⟨89, _⟩ => ⟨S2x1048576x1, .f32⟩
  | .hbm, ⟨90, _⟩ => ⟨S2x1048576x1, .f32⟩
  | .hbm, ⟨91, _⟩ => ⟨S2x1048576x1, .f32⟩
  | .hbm, ⟨92, _⟩ => ⟨S2x1048576x3, .f32⟩
  | .hbm, ⟨93, _⟩ => ⟨S2x1048576, .f32⟩
  | .hbm, ⟨94, _⟩ => ⟨S2x1048576, .f32⟩
  | .hbm, ⟨95, _⟩ => ⟨S2x1048576, .f32⟩
  | .hbm, ⟨96, _⟩ => ⟨S_, .f32⟩
  | .hbm, ⟨97, _⟩ => ⟨S2x1048576, .f32⟩
  | .hbm, ⟨98, _⟩ => ⟨S2x1048576, .f32⟩
  | .hbm, ⟨99, _⟩ => ⟨S2x1048576, .f32⟩
  | .hbm, ⟨100, _⟩ => ⟨S2x1048576, .f32⟩
  | .hbm, ⟨101, _⟩ => ⟨S2x1048576, .f32⟩
  | .hbm, ⟨102, _⟩ => ⟨S_, .f32⟩
  | .hbm, ⟨103, _⟩ => ⟨S2x1048576, .f32⟩
  | .hbm, ⟨104, _⟩ => ⟨S2x1048576, .f32⟩
  | .hbm, ⟨105, _⟩ => ⟨S2x1048576, .f32⟩
  | .hbm, ⟨106, _⟩ => ⟨S2x1048576, .f32⟩
  | .hbm, ⟨107, _⟩ => ⟨S2x1048576, .f32⟩
  | .hbm, ⟨108, _⟩ => ⟨S_, .f32⟩
  | .hbm, ⟨109, _⟩ => ⟨S2x1048576, .f32⟩
  | .hbm, ⟨110, _⟩ => ⟨S2x1048576, .f32⟩
  | .hbm, ⟨111, _⟩ => ⟨S_, .f32⟩
  | .hbm, ⟨112, _⟩ => ⟨S2x1048576, .f32⟩
  | .hbm, ⟨113, _⟩ => ⟨S2x1048576, .f32⟩
  | .hbm, ⟨114, _⟩ => ⟨S2x1048576x1, .f32⟩
  | .hbm, ⟨115, _⟩ => ⟨S2x1048576x1, .f32⟩
  | .hbm, ⟨116, _⟩ => ⟨S2x1048576x1, .f32⟩
  | .hbm, ⟨117, _⟩ => ⟨S2x1048576x3, .f32⟩
  | .hbm, ⟨118, _⟩ => ⟨S2x1048576x1x3, .f32⟩
  | .hbm, ⟨119, _⟩ => ⟨S2x1048576x1x3, .f32⟩
  | .hbm, ⟨120, _⟩ => ⟨S2x1048576x1x3, .f32⟩
  | .hbm, ⟨121, _⟩ => ⟨S2x1048576x3x3, .f32⟩
  | .hbm, ⟨122, _⟩ => ⟨S2x1048576x1x3, .f32⟩
  | .hbm, ⟨123, _⟩ => ⟨S2x1048576x3x3, .f32⟩
  | .hbm, ⟨124, _⟩ => ⟨S2x1048576x3x3, .f32⟩
  | .hbm, ⟨125, _⟩ => ⟨S2x1048576x3x3, .f32⟩
  | _, _ => ⟨S2x1048576x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_call0_v0 : Ref sig .tc := ⟨.hbm, 21, rfl⟩
abbrev main_call0_cst : Ref sig .tc := ⟨.hbm, 22, rfl⟩
abbrev main_call0_v1 : Ref sig .tc := ⟨.hbm, 23, rfl⟩
abbrev main_call0_v2 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_10 : Ref sig .tc := ⟨.hbm, 77, rfl⟩
abbrev main_v59 : Ref sig .tc := ⟨.hbm, 78, rfl⟩
abbrev main_v60 : Ref sig .tc := ⟨.hbm, 79, rfl⟩
abbrev main_cst_11 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_12 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_13 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_14 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_15 : Ref sig .tc := ⟨.hbm, 108, rfl⟩
abbrev main_v85 : Ref sig .tc := ⟨.hbm, 109, rfl⟩
abbrev main_v86 : Ref sig .tc := ⟨.hbm, 110, rfl⟩
abbrev main_cst_16 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩

abbrev nD : Nat := 1
abbrev τ : Topo := Topo.v7x

variable {F : FTy → Type} [FloatOps F]

class Facts₀ : Prop where
  slices_S2x1048576x82_S2x1048576x3_0_0_0 : S2x1048576x82.Slices ![0, 0, 0] S2x1048576x3
  slices_S2x1048576x82_S2x1048576x4_0_0_3 : S2x1048576x82.Slices ![0, 0, 3] S2x1048576x4
  slices_S2x1048576x82_S2x1048576x75_0_0_7 : S2x1048576x82.Slices ![0, 0, 7] S2x1048576x75
  bcast_S_S2x1048576x3 : S_.BroadcastsInDim S2x1048576x3 (![] : Fin 0 → Fin S2x1048576x3.rank)
  reducesTo_S2x1048576x4_S2x1048576_d2 : S2x1048576x4.ReducesTo [2] S2x1048576
  h_S_ : 0 < S_.numel
  bcast_S2x1048576_S2x1048576x1_0_1 : S2x1048576.BroadcastsInDim S2x1048576x1 (![0, 1] : Fin 2 → Fin S2x1048576x1.rank)
  bcast_S_S2x1048576x1 : S_.BroadcastsInDim S2x1048576x1 (![] : Fin 0 → Fin S2x1048576x1.rank)
  bcast_S2x1048576x1_S2x1048576x4_0_1_2 : S2x1048576x1.BroadcastsInDim S2x1048576x4 (![0, 1, 2] : Fin 3 → Fin S2x1048576x4.rank)
  shapeCasts_S2x1048576x75_S2x1048576x3x25 : S2x1048576x75.ShapeCasts S2x1048576x3x25
  bcast_S25_S1x1x1x25_3 : S25.BroadcastsInDim S1x1x1x25 (![3] : Fin 1 → Fin S1x1x1x25.rank)
  bcast_S1x1x1x25_S2x1048576x3x25_0_1_2_3 : S1x1x1x25.BroadcastsInDim S2x1048576x3x25 (![0, 1, 2, 3] : Fin 4 → Fin S2x1048576x3x25.rank)
  slices_S2x1048576x4_S2x1048576x1_0_0_0 : S2x1048576x4.Slices ![0, 0, 0] S2x1048576x1
  shapeCasts_S2x1048576x1_S2x1048576 : S2x1048576x1.ShapeCasts S2x1048576
  slices_S2x1048576x4_S2x1048576x1_0_0_1 : S2x1048576x4.Slices ![0, 0, 1] S2x1048576x1
  slices_S2x1048576x4_S2x1048576x1_0_0_2 : S2x1048576x4.Slices ![0, 0, 2] S2x1048576x1
  slices_S2x1048576x4_S2x1048576x1_0_0_3 : S2x1048576x4.Slices ![0, 0, 3] S2x1048576x1
  bcast_S_S2x1048576 : S_.BroadcastsInDim S2x1048576 (![] : Fin 0 → Fin S2x1048576.rank)
  concatenates_S2x1048576x1_S2x1048576x1_S2x1048576x1_S2x1048576x3_d2 : Shape.Concatenates [S2x1048576x1, S2x1048576x1, S2x1048576x1] S2x1048576x3 2
  bcast_S2x1048576x3_S2x1048576x1x3_0_1_3 : S2x1048576x3.BroadcastsInDim S2x1048576x1x3 (![0, 1, 3] : Fin 3 → Fin S2x1048576x1x3.rank)
  concatenates_S2x1048576x1x3_S2x1048576x1x3_S2x1048576x1x3_S2x1048576x3x3_d2 : Shape.Concatenates [S2x1048576x1x3, S2x1048576x1x3, S2x1048576x1x3] S2x1048576x3x3 2
  bcast_S2x1048576x1x3_S2x1048576x3x3_0_1_2_3 : S2x1048576x1x3.BroadcastsInDim S2x1048576x3x3 (![0, 1, 2, 3] : Fin 4 → Fin S2x1048576x3x3.rank)
  dot_S2x1048576x3x3_S2x1048576x3x3_S2x1048576x3x3_3_3_2_2_01_01_wf : DotDims.WF S2x1048576x3x3 S2x1048576x3x3 S2x1048576x3x3 [3] [3] [2] [2] [0, 1] [0, 1]

variable [Facts₀]

def dot_S2x1048576x3x3_S2x1048576x3x3_S2x1048576x3x3_3_3_2_2_01_01 : DotDims S2x1048576x3x3 S2x1048576x3x3 S2x1048576x3x3 where
  lhsContracting := [3]
  rhsContracting := [3]
  lhsNonContracting := [2]
  rhsNonContracting := [2]
  lhsBatch := [0, 1]
  rhsBatch := [0, 1]
  wf := dot_S2x1048576x3x3_S2x1048576x3x3_S2x1048576x3x3_3_3_2_2_01_01_wf

class Facts : Prop extends Facts₀ where

variable [Facts]
-- ==== Proof.GaussSpec.lean ====
/-
  What one Gaussian's record becomes.  A point (b, n) of the input carries 82 numbers: three raw scales, a raw
  quaternion (r, i, j, k) and 75 harmonics.  The scales go through 0.5 + 14.5 · σ(x); the quaternion is divided by
  its Euclidean length plus a small constant; the unit quaternion gives a rotation R, the columns of R are scaled
  (M = R · diag s) and the covariance is M · Mᵀ; the harmonics are multiplied by a mask that depends only on the
  harmonic's degree.  Everything is read on the extended reals, entry by entry, and stated once here so that the
  two programs can each be shown to compute it.
-/
import Idealize.ShloMosaic.PureOps.Ideal
import Idealize.ShloMosaic.PureOps.Ideal.Laws
import Idealize.ShloMosaic.Lib.ValueIdx

noncomputable section

namespace Cert.Gauss

open Idealize.ShloMosaic Idealize.ShloMosaic.ValueIdx

/-! ## Shapes -/

abbrev NPts : Nat := 1048576
abbrev SRaw : Shape := ⟨3, ![2, 1048576, 82]⟩
abbrev SCov : Shape := ⟨4, ![2, 1048576, 3, 3]⟩
abbrev SScale : Shape := ⟨3, ![2, 1048576, 3]⟩
abbrev SQuat : Shape := ⟨3, ![2, 1048576, 4]⟩
abbrev SSh : Shape := ⟨4, ![2, 1048576, 3, 25]⟩

/-! ## The constants, as the extended reals their f32 words denote -/

def half : EReal := Ideal.ofBits .f32 0x3F000000#32
def span : EReal := Ideal.ofBits .f32 0x41680000#32
def one : EReal := Ideal.ofBits .f32 0x3F800000#32
def two : EReal := Ideal.ofBits .f32 0x40000000#32
def tiny : EReal := Ideal.ofBits .f32 0x322BCC77#32

/-- The word 1.0 is the number one. -/
theorem one_eq : one = 1 := IdealRules.sign_bit.ideal_onePat .f32

/-! ## One point -/

/-- A raw scale squashed into [0.5, 15]. -/
def scale (x : EReal) : EReal := half + span * Ideal.logistic x

/-- The quaternion's length plus the small constant: what each component is divided by. -/
def len (q : Fin 4 → EReal) : EReal := Ideal.sqrt (∑ k : Fin 4, q k * q k) + tiny

/-- A component of the normalised quaternion. -/
def unitq (q : Fin 4 → EReal) (k : Fin 4) : EReal := Ideal.div (q k) (len q)

/-- The rotation of a quaternion (r, i, j, k), row by row. -/
def rot (r i j k : EReal) : Fin 3 → Fin 3 → EReal :=
  ![![one - two * (j * j + k * k), two * (i * j - k * r), two * (i * k + j * r)],
    ![two * (i * j + k * r), one - two * (i * i + k * k), two * (j * k - i * r)],
    ![two * (i * k - j * r), two * (j * k + i * r), one - two * (i * i + j * j)]]

/-- The rotation with its columns scaled. -/
def scaled (u : Fin 4 → EReal) (s : Fin 3 → EReal) (a e : Fin 3) : EReal := rot (u 0) (u 1) (u 2) (u 3) a e * s e

/-- The covariance M · Mᵀ at (a, c). -/
def cov (u : Fin 4 → EReal) (s : Fin 3 → EReal) (a c : Fin 3) : EReal := ∑ e : Fin 3, scaled u s a e * scaled u s c e

/-- The mask by harmonic: 1 for degree 0, then 0.1 · 0.25^d for the 3, 5, 7 and 9 harmonics of degree d = 1 … 4,
    each as its f32 word. -/
def maskWord : Fin 25 → BitVec 32 :=
  ![0x3F800000#32, 0x3CCCCCCD#32, 0x3CCCCCCD#32, 0x3CCCCCCD#32, 0x3BCCCCCD#32, 0x3BCCCCCD#32, 0x3BCCCCCD#32, 0x3BCCCCCD#32,
    0x3BCCCCCD#32, 0x3ACCCCCD#32, 0x3ACCCCCD#32, 0x3ACCCCCD#32, 0x3ACCCCCD#32, 0x3ACCCCCD#32, 0x3ACCCCCD#32, 0x3ACCCCCD#32,
    0x39CCCCCD#32, 0x39CCCCCD#32, 0x39CCCCCD#32, 0x39CCCCCD#32, 0x39CCCCCD#32, 0x39CCCCCD#32, 0x39CCCCCD#32, 0x39CCCCCD#32,
    0x39CCCCCD#32]

def mask (d : Fin 25) : EReal := Ideal.ofBits .f32 (maskWord d)

/-! ## The whole arrays, as functions of the raw array -/

variable (x : SRaw.Idx → EReal)

/-- Channel `k` of point (b, n). -/
def chan (b : Fin 2) (n : Fin 1048576) (k : Fin 82) : EReal := x (ix3 b n k)

/-- The three raw scales and the raw quaternion of point (b, n). -/
def rawScale (b : Fin 2) (n : Fin 1048576) (e : Fin 3) : EReal := chan x b n ⟨e.val, by omega⟩
def rawQuat (b : Fin 2) (n : Fin 1048576) (k : Fin 4) : EReal := chan x b n ⟨3 + k.val, by omega⟩

def scaleAt (b : Fin 2) (n : Fin 1048576) (e : Fin 3) : EReal := scale (rawScale x b n e)
def quatAt (b : Fin 2) (n : Fin 1048576) (k : Fin 4) : EReal := unitq (rawQuat x b n) k
def covAt (b : Fin 2) (n : Fin 1048576) (a c : Fin 3) : EReal := cov (quatAt x b n) (scaleAt x b n) a c
def shAt (b : Fin 2) (n : Fin 1048576) (a : Fin 3) (d : Fin 25) : EReal :=
  chan x b n ⟨7 + 25 * a.val + d.val, by omega⟩ * mask d

def covArr : SCov.Idx → EReal := fun y => covAt x (y 0) (y 1) (y 2) (y 3)
def scaleArr : SScale.Idx → EReal := fun y => scaleAt x (y 0) (y 1) (y 2)
def quatArr : SQuat.Idx → EReal := fun y => quatAt x (y 0) (y 1) (y 2)
def shArr : SSh.Idx → EReal := fun y => shAt x (y 0) (y 1) (y 2) (y 3)

theorem covArr_ix (b : Fin 2) (n : Fin 1048576) (a c : Fin 3) : covArr x (ix4 b n a c) = covAt x b n a c := rfl
theorem scaleArr_ix (b : Fin 2) (n : Fin 1048576) (e : Fin 3) : scaleArr x (ix3 b n e) = scaleAt x b n e := rfl
theorem quatArr_ix (b : Fin 2) (n : Fin 1048576) (k : Fin 4) : quatArr x (ix3 b n k) = quatAt x b n k := rfl
theorem shArr_ix (b : Fin 2) (n : Fin 1048576) (a : Fin 3) (d : Fin 25) : shArr x (ix4 b n a d) = shAt x b n a d := rfl

end Cert.Gauss

end
-- ==== Proof.LibColumnSum.lean ====
/-
  A sum down the rows of a matrix, read at one column.

  An [a, b] array of extended reals reduced by addition along axis 0 (its rows), from a zero initial value, holds at
  column l the finite sum over the a rows k of the entry (k, l). Stated with the operation's own proof arguments as
  variables, so that a printed reduction meets it in term mode whatever proofs it carries. Depends on no program.
-/
import Idealize.ShloMosaic.Lib.ValueIdx
import Idealize.ShloMosaic.PureOps.Ideal.Laws

noncomputable section

namespace Cert.Lib

open Idealize.ShloMosaic Idealize.ShloMosaic.ValueIdx

/-- The sum of column `l` of an [a, b] array over its `a` rows, from a zero initial value. -/
theorem column_sum {a b : ℕ} (v : FVec Ideal ⟨2, ![a, b]⟩ .f32) (h : (⟨2, ![a, b]⟩ : Shape).Reduces [0] ⟨1, ![b]⟩)
    (hφ : FKind.Formats .f32) (hacc : (0x00000000#32 : BitVec (FTy.f32).bits) = FKind.add.neutral .f32 hφ) (l : Fin b) :
    multiReduction .add [0] ⟨1, ![b]⟩ v 0x00000000#32 h hφ hacc (ix1 l) = ∑ k : Fin a, v (ix2 k l) :=
  (Ideal.multiReduction_add_single v 0x00000000#32 h hφ hacc (ix1 l)).trans
    (Finset.sum_congr rfl fun k _ => congrArg v (funext fun c => Fin.ext (by
      match c with
      | ⟨0, _⟩ => rfl
      | ⟨1, _⟩ => rfl)))

end Cert.Lib

end
-- ==== Proof.KernelRows.lean ====
/-
  One row of the kernel's block.  A block holds 4096 points; the body transposes the seven leading channels so that
  each channel is a row of 4096 lanes, does all its arithmetic lane by lane, stacks sixteen result rows and transposes
  back.  Read at lane p, every intermediate row is a scalar function of the seven leading channels of point p: the
  squashed scales, the quaternion divided by its length, and then plain products and sums of those.
-/
import proofs.«164973_j38001870635883_2_alg».proof.Proof.Gen.KernelIdeal.Skeleton
import proofs.«164973_j38001870635883_2_alg».proof.Proof.GaussSpec
import proofs.«164973_j38001870635883_2_alg».proof.Proof.LibColumnSum
import Idealize.ShloMosaic.Lib.ValueIdx
import Idealize.ShloMosaic.Lib.ValueLayout
import Idealize.ShloMosaic.Lib.Pipeline.Value

noncomputable section

namespace Cert.KernelIdeal.Rows

open Idealize.ShloMosaic Idealize.ShloMosaic.ValueIdx Cert.KernelIdeal Cert.KernelIdeal.Gen Cert.Gauss

variable (X : FVec Ideal S4096x82 .f32)

/-- The raw quaternion and the squashed scales of point p of the block. -/
def rowQ (p : Fin 4096) : Fin 4 → EReal := fun k => X (ix2 p ⟨3 + k.val, by omega⟩)
def rowS (p : Fin 4096) : Fin 3 → EReal := fun e => scale (X (ix2 p ⟨e.val, by omega⟩))

theorem pay3_eq : k0_pay3 (F := Ideal) X = X := shapeCast_self _ _

/-- Channel k of the transposed slab at lane p is channel k of point p. -/
theorem pay4_at (k : Fin 7) (p : Fin 4096) : k0_pay4 (F := Ideal) X (ix2 k p) = X (ix2 p ⟨k.val, by omega⟩) := by
  unfold k0_pay4
  refine (transpose_ix2_apply _ _ k p).trans ?_
  refine (slice2_axis1_apply 0 _ _ p k ⟨k.val, by omega⟩ (by simp)).trans ?_
  rw [pay3_eq]

/-- The scale rows: 0.5 + 14.5 · σ of the raw scale. -/
theorem pay5_at (e : Fin 3) (p : Fin 4096) : k0_pay5 (F := Ideal) X (ix2 e p) = rowS X p e := by
  unfold k0_pay5 rowS scale
  show half + span * Ideal.logistic (extractStridedSlice S3x4096 ![0, 0] (k0_pay4 (F := Ideal) X) _ (ix2 e p)) = _
  refine congrArg (fun z => half + span * Ideal.logistic z) ?_
  exact (slice2_axis0_apply (n0 := 7) (n1 := 4096) (m := 3) 0 (k0_pay4 (F := Ideal) X) _ e p ⟨e.val, by omega⟩ (by simp)).trans
    (pay4_at X ⟨e.val, by omega⟩ p)

/-- A [4, 4096] slab divided, lane by lane, by the length of its column plus the small constant. -/
theorem unit_row (Q5 : FVec Ideal S4x4096 .f32) (q : Fin 4 → EReal) (p : Fin 4096) (hq : ∀ k, Q5 (ix2 k p) = q k) (k : Fin 4)
    (h1 : S4x4096.Reduces [0] S4096) (hφ : FKind.Formats .f32)
    (hacc : (0x00000000#32 : BitVec (FTy.f32).bits) = FKind.add.neutral .f32 hφ)
    (h2 : S4096.ShapeCasts S1x4096) (h3 : S1x4096.Broadcasts S4x4096) :
    divf Q5 (broadcastTo S4x4096 (addf (sqrt (shapeCast S1x4096 (multiReduction .add [0] S4096 (mulf Q5 Q5) 0x00000000#32 h1 hφ hacc) h2))
      (broadcast S1x4096 (Scalar.ofBits .f32 0x322BCC77#32))) h3) (ix2 k p) = unitq q k := by
  have hsum : multiReduction .add [0] S4096 (mulf Q5 Q5) 0x00000000#32 h1 hφ hacc (ix1 p) = ∑ k' : Fin 4, q k' * q k' :=
    (Cert.Lib.column_sum (mulf Q5 Q5) h1 hφ hacc p).trans (Finset.sum_congr rfl fun k' _ => by rw [mulf_apply, hq])
  have hcast : shapeCast S1x4096 (multiReduction .add [0] S4096 (mulf Q5 Q5) 0x00000000#32 h1 hφ hacc) h2 (ix2 (0 : Fin 1) p)
      = ∑ k' : Fin 4, q k' * q k' := (shapeCast_a_1a_apply _ h2 0 p).trans hsum
  have hb : broadcastTo S4x4096 (addf (sqrt (shapeCast S1x4096 (multiReduction .add [0] S4096 (mulf Q5 Q5) 0x00000000#32 h1 hφ hacc) h2))
      (broadcast S1x4096 (Scalar.ofBits .f32 0x322BCC77#32))) h3 (ix2 k p) = len q := by
    refine (broadcastTo_1b_ab_apply _ h3 k p).trans ?_
    show Ideal.sqrt (shapeCast S1x4096 _ h2 (ix2 (0 : Fin 1) p)) + tiny = _
    rw [hcast]; rfl
  show Ideal.div (Q5 (ix2 k p)) _ = _
  rw [hb, hq]; rfl

/-- The normalised quaternion's rows. -/
theorem pay6_at (k : Fin 4) (p : Fin 4096) : k0_pay6 (F := Ideal) X (ix2 k p) = unitq (rowQ X p) k := by
  unfold k0_pay6
  exact unit_row _ (rowQ X p) p (fun k' =>
    (slice2_axis0_apply (n0 := 7) (n1 := 4096) (m := 4) 3 (k0_pay4 (F := Ideal) X) _ k' p ⟨3 + k'.val, by omega⟩ rfl).trans
      (pay4_at X ⟨3 + k'.val, by omega⟩ p)) k _ _ _ _ _

theorem pay7_at (p : Fin 4096) : k0_pay7 (F := Ideal) X (ix2 (0 : Fin 1) p) = unitq (rowQ X p) 0 := by
  unfold k0_pay7
  exact (slice2_axis0_apply (n0 := 4) (n1 := 4096) (m := 1) 0 (k0_pay6 (F := Ideal) X) _ (0 : Fin 1) p (0 : Fin 4) rfl).trans (pay6_at X 0 p)
theorem pay8_at (p : Fin 4096) : k0_pay8 (F := Ideal) X (ix2 (0 : Fin 1) p) = unitq (rowQ X p) 1 := by
  unfold k0_pay8
  exact (slice2_axis0_apply (n0 := 4) (n1 := 4096) (m := 1) 1 (k0_pay6 (F := Ideal) X) _ (0 : Fin 1) p (1 : Fin 4) rfl).trans (pay6_at X 1 p)
theorem pay9_at (p : Fin 4096) : k0_pay9 (F := Ideal) X (ix2 (0 : Fin 1) p) = unitq (rowQ X p) 2 := by
  unfold k0_pay9
  exact (slice2_axis0_apply (n0 := 4) (n1 := 4096) (m := 1) 2 (k0_pay6 (F := Ideal) X) _ (0 : Fin 1) p (2 : Fin 4) rfl).trans (pay6_at X 2 p)
theorem pay10_at (p : Fin 4096) : k0_pay10 (F := Ideal) X (ix2 (0 : Fin 1) p) = unitq (rowQ X p) 3 := by
  unfold k0_pay10
  exact (slice2_axis0_apply (n0 := 4) (n1 := 4096) (m := 1) 3 (k0_pay6 (F := Ideal) X) _ (0 : Fin 1) p (3 : Fin 4) rfl).trans (pay6_at X 3 p)

theorem pay16_at (p : Fin 4096) : k0_pay16 (F := Ideal) (k0_pay5 X) (ix2 (0 : Fin 1) p) = rowS X p 0 := by
  unfold k0_pay16
  exact (slice2_axis0_apply (n0 := 3) (n1 := 4096) (m := 1) 0 (k0_pay5 (F := Ideal) X) _ (0 : Fin 1) p (0 : Fin 3) rfl).trans (pay5_at X 0 p)
theorem pay17_at (p : Fin 4096) : k0_pay17 (F := Ideal) (k0_pay5 X) (ix2 (0 : Fin 1) p) = rowS X p 1 := by
  unfold k0_pay17
  exact (slice2_axis0_apply (n0 := 3) (n1 := 4096) (m := 1) 1 (k0_pay5 (F := Ideal) X) _ (0 : Fin 1) p (1 : Fin 3) rfl).trans (pay5_at X 1 p)
theorem pay18_at (p : Fin 4096) : k0_pay18 (F := Ideal) (k0_pay5 X) (ix2 (0 : Fin 1) p) = rowS X p 2 := by
  unfold k0_pay18
  exact (slice2_axis0_apply (n0 := 3) (n1 := 4096) (m := 1) 2 (k0_pay5 (F := Ideal) X) _ (0 : Fin 1) p (2 : Fin 3) rfl).trans (pay5_at X 2 p)

end Cert.KernelIdeal.Rows

end
-- ==== Proof.KernelCols.lean ====
/-
  The sixteen columns of the kernel's fused output block, and its harmonics block.

  At lane p the body holds the unit quaternion u = (r, i, j, k) and the scales s of point p.  Its rotation rows,
  their scaling M = R · diag s, and the six distinct entries of M · Mᵀ are products and sums of those scalars, written
  with the sum over the three columns spelt out and the three below-diagonal entries taken from above the diagonal;
  a three-term sum is the sum over Fin 3, and M·Mᵀ is symmetric because the product of extended reals commutes.
  The sixteen rows are stacked and transposed, so column c of the block at point p is row c at lane p.
-/
import proofs.«164973_j38001870635883_2_alg».proof.Proof.KernelRows
import proofs.«164973_j38001870635883_2_alg».proof.Proof.Gen.KernelIdeal.Frame

noncomputable section

namespace Cert.KernelIdeal.Cols

open Idealize.ShloMosaic Idealize.ShloMosaic.ValueIdx Cert.KernelIdeal Cert.KernelIdeal.Gen Cert.Gauss Cert.KernelIdeal.Rows

/-- Sixteen rows of 4096 lanes stacked along axis 0: row c at lane p. -/
theorem concat16 (f : Fin 16 → (S1x4096.Idx → EReal))
    (h : Shape.Concatenates ((List.ofFn fun n : Fin 16 => (⟨S1x4096, f n⟩ : (s : Shape) × (s.Idx → EReal))).map (·.1)) S16x4096 0)
    (c : Fin 16) (p : Fin 4096) :
    concatenate S16x4096 0 (List.ofFn fun n : Fin 16 => (⟨S1x4096, f n⟩ : (s : Shape) × (s.Idx → EReal))) h (ix2 c p)
      = f c (ix2 (0 : Fin 1) p) :=
  concatenate_ofFn_unit_apply (t := S16x4096) (s₁ := S1x4096) (0 : Fin 2) f h rfl rfl (ix2 c p) c rfl (ix2 (0 : Fin 1) p) (fun b hb => by
    match b with
    | ⟨0, _⟩ => exact absurd rfl hb
    | ⟨1, _⟩ => rfl)

/-- The stacked rows, in the order the body stacks them: the nine covariance entries row-major (the three
    below-diagonal ones repeated from above), the three scales, the four quaternion components. -/
def rows16 (v19 v20 v21 v22 v74 v75 v76 v80 v81 v82 v83 v84 v85 v90 v95 v100 : FVec Ideal S1x4096 .f32) :
    Fin 16 → (S1x4096.Idx → EReal) :=
  ![v90, v95, v100, v95, addf (addf (mulf v80 v80) (mulf v81 v81)) (mulf v82 v82),
    addf (addf (mulf v80 v83) (mulf v81 v84)) (mulf v82 v85), v100, addf (addf (mulf v80 v83) (mulf v81 v84)) (mulf v82 v85),
    addf (addf (mulf v83 v83) (mulf v84 v84)) (mulf v85 v85), v74, v75, v76, v19, v20, v21, v22]

theorem pay1_at (v19 v20 v21 v22 v74 v75 v76 v80 v81 v82 v83 v84 v85 v90 v95 v100 : FVec Ideal S1x4096 .f32)
    (p : Fin 4096) (c : Fin 16) :
    k0_pay1 (F := Ideal) v19 v20 v21 v22 v74 v75 v76 v80 v81 v82 v83 v84 v85 v90 v95 v100 (ix2 p c)
      = rows16 v19 v20 v21 v22 v74 v75 v76 v80 v81 v82 v83 v84 v85 v90 v95 v100 c (ix2 (0 : Fin 1) p) := by
  unfold k0_pay1
  refine (transpose_ix2_apply (a := 16) (b := 4096) _ _ p c).trans ?_
  exact concat16 (rows16 v19 v20 v21 v22 v74 v75 v76 v80 v81 v82 v83 v84 v85 v90 v95 v100) _ c p

variable (X : FVec Ideal S4096x82 .f32) (x1 : FVec Ideal S1x75 .f32) (p : Fin 4096)

local notation "𝐮" => unitq (rowQ X p)
local notation "𝐬" => rowS X p
local notation "𝐨" => ix2 (0 : Fin 1) p

/-! ## The scaled rotation, entry by entry -/

theorem M00_at : k0_pay19 (F := Ideal) (k0_pay5 X) (k0_pay11 X) 𝐨 = scaled 𝐮 𝐬 0 0 := by
  simp only [k0_pay19, k0_pay11, mulf_apply, addf_apply, subf_apply, broadcast_apply, pay7_at, pay8_at, pay9_at, pay10_at, pay16_at]
  rfl
theorem M01_at : k0_pay20 (F := Ideal) (k0_pay5 X) (k0_pay12 X) 𝐨 = scaled 𝐮 𝐬 0 1 := by
  simp only [k0_pay20, k0_pay12, mulf_apply, addf_apply, subf_apply, broadcast_apply, pay7_at, pay8_at, pay9_at, pay10_at, pay17_at]
  rfl
theorem M02_at : k0_pay21 (F := Ideal) (k0_pay5 X) (k0_pay13 X) 𝐨 = scaled 𝐮 𝐬 0 2 := by
  simp only [k0_pay21, k0_pay13, mulf_apply, addf_apply, subf_apply, broadcast_apply, pay7_at, pay8_at, pay9_at, pay10_at, pay18_at]
  rfl
theorem M10_at : k0_pay22 (F := Ideal) (k0_pay5 X) (k0_pay14 X) 𝐨 = scaled 𝐮 𝐬 1 0 := by
  simp only [k0_pay22, k0_pay14, mulf_apply, addf_apply, subf_apply, broadcast_apply, pay7_at, pay8_at, pay9_at, pay10_at, pay16_at]
  rfl
theorem M11_at : k0_pay23 (F := Ideal) (k0_pay5 X) (k0_pay15 X) 𝐨 = scaled 𝐮 𝐬 1 1 := by
  simp only [k0_pay23, k0_pay15, mulf_apply, addf_apply, subf_apply, broadcast_apply, pay7_at, pay8_at, pay9_at, pay10_at, pay17_at]
  rfl
theorem M12_at : k0_pay24 (F := Ideal) (k0_pay5 X) (k0_pay7 X) (k0_pay8 X) (k0_pay9 X) (k0_pay10 X) 𝐨 = scaled 𝐮 𝐬 1 2 := by
  simp only [k0_pay24, mulf_apply, addf_apply, subf_apply, broadcast_apply, pay7_at, pay8_at, pay9_at, pay10_at, pay18_at]
  rfl
theorem M20_at : k0_pay25 (F := Ideal) (k0_pay5 X) (k0_pay7 X) (k0_pay8 X) (k0_pay9 X) (k0_pay10 X) 𝐨 = scaled 𝐮 𝐬 2 0 := by
  simp only [k0_pay25, mulf_apply, addf_apply, subf_apply, broadcast_apply, pay7_at, pay8_at, pay9_at, pay10_at, pay16_at]
  rfl
theorem M21_at : k0_pay26 (F := Ideal) (k0_pay5 X) (k0_pay7 X) (k0_pay8 X) (k0_pay9 X) (k0_pay10 X) 𝐨 = scaled 𝐮 𝐬 2 1 := by
  simp only [k0_pay26, mulf_apply, addf_apply, subf_apply, broadcast_apply, pay7_at, pay8_at, pay9_at, pay10_at, pay17_at]
  rfl
theorem M22_at : k0_pay27 (F := Ideal) (k0_pay5 X) (k0_pay8 X) (k0_pay9 X) 𝐨 = scaled 𝐮 𝐬 2 2 := by
  simp only [k0_pay27, mulf_apply, addf_apply, subf_apply, broadcast_apply, pay7_at, pay8_at, pay9_at, pay10_at, pay18_at]
  rfl

/-! ## M · Mᵀ -/

/-- M · Mᵀ is symmetric. -/
theorem cov_symm (u : Fin 4 → EReal) (s : Fin 3 → EReal) (a c : Fin 3) : cov u s a c = cov u s c a :=
  Finset.sum_congr rfl fun e _ => mul_comm _ _

theorem cov00_at : k0_pay28 (F := Ideal) (k0_pay5 X) (k0_pay11 X) (k0_pay12 X) (k0_pay13 X) 𝐨 = cov 𝐮 𝐬 0 0 := by
  simp only [k0_pay28, mulf_apply, addf_apply, M00_at, M01_at, M02_at]
  rw [cov, Fin.sum_univ_three]
theorem cov01_at : k0_pay29 (F := Ideal) (k0_pay5 X) (k0_pay7 X) (k0_pay8 X) (k0_pay9 X) (k0_pay10 X) (k0_pay11 X) (k0_pay12 X) (k0_pay13 X)
    (k0_pay14 X) (k0_pay15 X) 𝐨 = cov 𝐮 𝐬 0 1 := by
  simp only [k0_pay29, mulf_apply, addf_apply, M00_at, M01_at, M02_at, M10_at, M11_at, M12_at]
  rw [cov, Fin.sum_univ_three]
theorem cov02_at : k0_pay30 (F := Ideal) (k0_pay5 X) (k0_pay7 X) (k0_pay8 X) (k0_pay9 X) (k0_pay10 X) (k0_pay11 X) (k0_pay12 X) (k0_pay13 X) 𝐨
    = cov 𝐮 𝐬 0 2 := by
  simp only [k0_pay30, mulf_apply, addf_apply, M00_at, M01_at, M02_at, M20_at, M21_at, M22_at]
  rw [cov, Fin.sum_univ_three]
theorem cov11_at : addf (addf (mulf (k0_pay22 (F := Ideal) (k0_pay5 X) (k0_pay14 X)) (k0_pay22 (k0_pay5 X) (k0_pay14 X)))
      (mulf (k0_pay23 (k0_pay5 X) (k0_pay15 X)) (k0_pay23 (k0_pay5 X) (k0_pay15 X))))
      (mulf (k0_pay24 (k0_pay5 X) (k0_pay7 X) (k0_pay8 X) (k0_pay9 X) (k0_pay10 X)) (k0_pay24 (k0_pay5 X) (k0_pay7 X) (k0_pay8 X) (k0_pay9 X) (k0_pay10 X))) 𝐨
    = cov 𝐮 𝐬 1 1 := by
  simp only [mulf_apply, addf_apply, M10_at, M11_at, M12_at]
  rw [cov, Fin.sum_univ_three]
theorem cov12_at : addf (addf (mulf (k0_pay22 (F := Ideal) (k0_pay5 X) (k0_pay14 X)) (k0_pay25 (k0_pay5 X) (k0_pay7 X) (k0_pay8 X) (k0_pay9 X) (k0_pay10 X)))
      (mulf (k0_pay23 (k0_pay5 X) (k0_pay15 X)) (k0_pay26 (k0_pay5 X) (k0_pay7 X) (k0_pay8 X) (k0_pay9 X) (k0_pay10 X))))
      (mulf (k0_pay24 (k0_pay5 X) (k0_pay7 X) (k0_pay8 X) (k0_pay9 X) (k0_pay10 X)) (k0_pay27 (k0_pay5 X) (k0_pay8 X) (k0_pay9 X))) 𝐨
    = cov 𝐮 𝐬 1 2 := by
  simp only [mulf_apply, addf_apply, M10_at, M11_at, M12_at, M20_at, M21_at, M22_at]
  rw [cov, Fin.sum_univ_three]
theorem cov22_at : addf (addf (mulf (k0_pay25 (F := Ideal) (k0_pay5 X) (k0_pay7 X) (k0_pay8 X) (k0_pay9 X) (k0_pay10 X)) (k0_pay25 (k0_pay5 X) (k0_pay7 X) (k0_pay8 X) (k0_pay9 X) (k0_pay10 X)))
      (mulf (k0_pay26 (k0_pay5 X) (k0_pay7 X) (k0_pay8 X) (k0_pay9 X) (k0_pay10 X)) (k0_pay26 (k0_pay5 X) (k0_pay7 X) (k0_pay8 X) (k0_pay9 X) (k0_pay10 X))))
      (mulf (k0_pay27 (k0_pay5 X) (k0_pay8 X) (k0_pay9 X)) (k0_pay27 (k0_pay5 X) (k0_pay8 X) (k0_pay9 X))) 𝐨
    = cov 𝐮 𝐬 2 2 := by
  simp only [mulf_apply, addf_apply, M20_at, M21_at, M22_at]
  rw [cov, Fin.sum_univ_three]

/-! ## The two output blocks -/

theorem hz : (![0, 0] : Fin 2 → Nat) = fun _ => 0 := funext fun a => by fin_cases a <;> rfl

/-- The fused block is the transposed stack over the rows of the input block. -/
theorem out2_eq : out0_2 (F := Ideal) X x1 = k0_pay1 (F := Ideal) (k0_pay7 X) (k0_pay8 X) (k0_pay9 X) (k0_pay10 X) (k0_pay16 (k0_pay5 X)) (k0_pay17 (k0_pay5 X)) (k0_pay18 (k0_pay5 X)) (k0_pay22 (k0_pay5 X) (k0_pay14 X)) (k0_pay23 (k0_pay5 X) (k0_pay15 X)) (k0_pay24 (k0_pay5 X) (k0_pay7 X) (k0_pay8 X) (k0_pay9 X) (k0_pay10 X)) (k0_pay25 (k0_pay5 X) (k0_pay7 X) (k0_pay8 X) (k0_pay9 X) (k0_pay10 X)) (k0_pay26 (k0_pay5 X) (k0_pay7 X) (k0_pay8 X) (k0_pay9 X) (k0_pay10 X)) (k0_pay27 (k0_pay5 X) (k0_pay8 X) (k0_pay9 X)) (k0_pay28 (k0_pay5 X) (k0_pay11 X) (k0_pay12 X) (k0_pay13 X)) (k0_pay29 (k0_pay5 X) (k0_pay7 X) (k0_pay8 X) (k0_pay9 X) (k0_pay10 X) (k0_pay11 X) (k0_pay12 X) (k0_pay13 X) (k0_pay14 X) (k0_pay15 X)) (k0_pay30 (k0_pay5 X) (k0_pay7 X) (k0_pay8 X) (k0_pay9 X) (k0_pay10 X) (k0_pay11 X) (k0_pay12 X) (k0_pay13 X)) := by
  unfold out0_2
  rw [View.canon_unit_zero hz]
  simp only [View.ld_unit_zero (S := S4096x82) hz]

/-- Columns 0–8: the covariance of point p, row-major. -/
theorem col_cov (a c : Fin 3) : out0_2 (F := Ideal) X x1 (ix2 p ⟨3 * a.val + c.val, by omega⟩) = cov 𝐮 𝐬 a c := by
  rw [out2_eq, pay1_at]
  fin_cases a <;> fin_cases c
  · exact cov00_at X p
  · exact cov01_at X p
  · exact cov02_at X p
  · exact (cov01_at X p).trans (cov_symm _ _ _ _)
  · exact cov11_at X p
  · exact cov12_at X p
  · exact (cov02_at X p).trans (cov_symm _ _ _ _)
  · exact (cov12_at X p).trans (cov_symm _ _ _ _)
  · exact cov22_at X p

/-- Columns 9–11: the scales. -/
theorem col_scale (e : Fin 3) : out0_2 (F := Ideal) X x1 (ix2 p ⟨9 + e.val, by omega⟩) = 𝐬 e := by
  rw [out2_eq, pay1_at]
  fin_cases e
  · exact pay16_at X p
  · exact pay17_at X p
  · exact pay18_at X p

/-- Columns 12–15: the unit quaternion. -/
theorem col_quat (k : Fin 4) : out0_2 (F := Ideal) X x1 (ix2 p ⟨12 + k.val, by omega⟩) = 𝐮 k := by
  rw [out2_eq, pay1_at]
  fin_cases k
  · exact pay7_at X p
  · exact pay8_at X p
  · exact pay9_at X p
  · exact pay10_at X p

/-- The harmonics block: channel 7 + e of point p times entry e of the mask row. -/
theorem out3_at (e : Fin 75) : out0_3 (F := Ideal) X x1 (ix2 p e) = X (ix2 p ⟨7 + e.val, by omega⟩) * x1 (ix2 (0 : Fin 1) e) := by
  unfold out0_3
  rw [View.canon_unit_zero hz]
  simp only [View.ld_unit_zero (S := S4096x82) hz, View.ld_unit_zero (S := S1x75) hz]
  unfold k0_pay2
  show extractStridedSlice S4096x75 ![0, 7] (k0_pay3 (F := Ideal) X) _ (ix2 p e) * broadcastTo S4096x75 x1 _ (ix2 p e) = _
  rw [pay3_eq]
  exact congrArg₂ (· * ·) (slice2_axis1_apply (n0 := 4096) (n1 := 82) (m := 75) 7 X _ p e ⟨7 + e.val, by omega⟩ rfl)
    (broadcastTo_1b_ab_apply (a := 4096) (b := 75) x1 _ p e)

end Cert.KernelIdeal.Cols

end
-- ==== Proof.KernelBlocks.lean ====
/-
  From blocks to arrays.  The grid has 512 points; point t reads rows 4096·t … 4096·t + 4095 of the [2097152, 82]
  array and the whole [1, 75] mask row, and writes rows 4096·t … of the two output arrays.  What it writes depends
  only on the row it writes, so each output array ends as ONE function of the input array, row by row: the fused
  array's sixteen columns are the covariance (row-major), the scales and the unit quaternion of the row's point, and
  the harmonics array is the row's channels 7 … 81 times the mask.
-/
import proofs.«164973_j38001870635883_2_alg».proof.Proof.KernelCols
import Idealize.ShloMosaic.Lib.Pipeline.Value

noncomputable section

namespace Cert.KernelIdeal.Blocks

open Idealize.ShloMosaic Idealize.ShloMosaic.TcCoe Idealize.ShloMosaic.ValueIdx Idealize.SL.Sem
open Cert.KernelIdeal Cert.KernelIdeal.Gen Cert.Gauss Cert.KernelIdeal.Rows Cert.KernelIdeal.Cols
open Idealize.ShloMosaic.Pipeline (Dat)

/-! ## The two arrays as functions of the input array -/

/-- The raw quaternion and the squashed scales of row P of the flat input array. -/
def bigQ (A : S2097152x82.Idx → EReal) (P : Fin 2097152) : Fin 4 → EReal := fun k => A (ix2 P ⟨3 + k.val, by omega⟩)
def bigS (A : S2097152x82.Idx → EReal) (P : Fin 2097152) : Fin 3 → EReal := fun e => scale (A (ix2 P ⟨e.val, by omega⟩))

/-- Column c of row P of the fused array. -/
def fused (A : S2097152x82.Idx → EReal) (P : Fin 2097152) (c : Fin 16) : EReal :=
  if h9 : c.val < 9 then cov (unitq (bigQ A P)) (bigS A P) ⟨c.val / 3, by omega⟩ ⟨c.val % 3, by omega⟩
  else if h12 : c.val < 12 then bigS A P ⟨c.val - 9, by omega⟩
  else unitq (bigQ A P) ⟨c.val - 12, by omega⟩

def G16 (A : S2097152x82.Idx → EReal) : S2097152x16.Idx → EReal := fun i => fused A (i 0) (i 1)

/-- Entry e of row P of the harmonics array. -/
def harm (A : S2097152x82.Idx → EReal) (K : S1x75.Idx → EReal) (P : Fin 2097152) (e : Fin 75) : EReal :=
  A (ix2 P ⟨7 + e.val, by omega⟩) * K (ix2 (0 : Fin 1) e)

def G75 (A : S2097152x82.Idx → EReal) (K : S1x75.Idx → EReal) : S2097152x75.Idx → EReal := fun i => harm A K (i 0) (i 1)

/-! ## One block: what a point computes is the rows' function -/

theorem block16 (X : FVec Ideal S4096x82 .f32) (x1 : FVec Ideal S1x75 .f32) (A : S2097152x82.Idx → EReal) (T : Nat)
    (hX : ∀ (p : Fin 4096) (k : Fin 82) (P : Fin 2097152), P.val = T * 4096 + p.val → X (ix2 p k) = A (ix2 P k))
    (y : S4096x16.Idx) (i : S2097152x16.Idx) (hi0 : (i 0).val = T * 4096 + (y 0).val) (hi1 : (i 1).val = (y 1).val) :
    out0_2 (F := Ideal) X x1 y = G16 A i := by
  obtain ⟨p, cc, rfl⟩ : ∃ (p : Fin 4096) (cc : Fin 16), y = ix2 p cc := ⟨y 0, y 1, eq_ix2 y⟩
  obtain ⟨P, c2, rfl⟩ : ∃ (P : Fin 2097152) (c2 : Fin 16), i = ix2 P c2 := ⟨i 0, i 1, eq_ix2 i⟩
  have hP : P.val = T * 4096 + p.val := hi0
  have hc : c2 = cc := Fin.ext hi1
  subst hc
  have hQ : rowQ X p = bigQ A P := funext fun k => hX p _ P hP
  have hS : rowS X p = bigS A P := funext fun e => congrArg scale (hX p _ P hP)
  show _ = fused A P c2
  unfold fused
  split_ifs with h9 h12
  · have h := col_cov X x1 p ⟨c2.val / 3, by omega⟩ ⟨c2.val % 3, by omega⟩
    rw [hQ, hS] at h
    refine Eq.trans (congrArg (fun z => out0_2 (F := Ideal) X x1 (ix2 p z)) (Fin.ext ?_)) h
    show c2.val = 3 * (c2.val / 3) + c2.val % 3
    omega
  · have h := col_scale X x1 p ⟨c2.val - 9, by omega⟩
    rw [hS] at h
    refine Eq.trans (congrArg (fun z => out0_2 (F := Ideal) X x1 (ix2 p z)) (Fin.ext ?_)) h
    show c2.val = 9 + (c2.val - 9)
    omega
  · have h := col_quat X x1 p ⟨c2.val - 12, by have := c2.isLt; omega⟩
    rw [hQ] at h
    refine Eq.trans (congrArg (fun z => out0_2 (F := Ideal) X x1 (ix2 p z)) (Fin.ext ?_)) h
    show c2.val = 12 + (c2.val - 12)
    omega

theorem block75 (X : FVec Ideal S4096x82 .f32) (x1 : FVec Ideal S1x75 .f32) (A : S2097152x82.Idx → EReal) (K : S1x75.Idx → EReal) (T : Nat)
    (hX : ∀ (p : Fin 4096) (k : Fin 82) (P : Fin 2097152), P.val = T * 4096 + p.val → X (ix2 p k) = A (ix2 P k))
    (hK : ∀ e : Fin 75, x1 (ix2 (0 : Fin 1) e) = K (ix2 (0 : Fin 1) e))
    (y : S4096x75.Idx) (i : S2097152x75.Idx) (hi0 : (i 0).val = T * 4096 + (y 0).val) (hi1 : (i 1).val = (y 1).val) :
    out0_3 (F := Ideal) X x1 y = G75 A K i := by
  obtain ⟨p, e, rfl⟩ : ∃ (p : Fin 4096) (e : Fin 75), y = ix2 p e := ⟨y 0, y 1, eq_ix2 y⟩
  obtain ⟨P, e2, rfl⟩ : ∃ (P : Fin 2097152) (e2 : Fin 75), i = ix2 P e2 := ⟨i 0, i 1, eq_ix2 i⟩
  have hP : P.val = T * 4096 + p.val := hi0
  have he : e2 = e := Fin.ext hi1
  subst he
  show _ = harm A K P e2
  unfold harm
  rw [out3_at, hX p _ P hP, hK]

/-! ## The windows' blocks -/

variable (m : (ℓ : Loc nD τ sig) → Buf (Elt Ideal) ℓ)

/-- The printed index maps over the grid: the three row-tiled windows are at block (t, 0), the mask row at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Point t's input block is rows 4096·t … of the flat input array. -/
theorem iblk0_apply (c : Dev nD) (t : Fin cfg0.N) (x : S4096x82.Idx) (k : S2097152x82.Idx)
    (hk0 : (k 0).val = t.val * 4096 + (x 0).val) (hk1 : (k 1).val = (x 1).val) :
    (iblk m c 0 t : Vec Ideal S4096x82 .f32) x = (V m c main_v0 : S2097152x82.Idx → EReal) k := by
  obtain ⟨e0, e1, -⟩ := idx_facts t
  unfold iblk
  rw [View.read_apply]
  show V m c main_v0 _ = V m c main_v0 _
  refine congrArg (V m c main_v0) (funext fun a => Fin.ext ?_)
  match a with
  | ⟨0, _⟩ => show win0_0.index t 0 * 4096 + 1 * (x 0).val = (k 0).val; rw [e0, hk0]; omega
  | ⟨1, _⟩ => show win0_0.index t 1 * 82 + 1 * (x 1).val = (k 1).val; rw [e1, hk1]; omega

/-- Every point's mask block is the whole mask row. -/
theorem iblk1_apply (c : Dev nD) (t : Fin cfg0.N) (x : S1x75.Idx) :
    (iblk m c 1 t : Vec Ideal S1x75 .f32) x = (V m c main_cst : S1x75.Idx → EReal) x := by
  obtain ⟨-, -, e0, e1, -⟩ := idx_facts t
  unfold iblk
  rw [View.read_apply]
  show V m c main_cst _ = V m c main_cst _
  refine congrArg (V m c main_cst) (funext fun a => Fin.ext ?_)
  match a with
  | ⟨0, _⟩ => show win0_1.index t 0 * 1 + 1 * (x 0).val = (x 0).val; rw [e0]; omega
  | ⟨1, _⟩ => show win0_1.index t 1 * 75 + 1 * (x 1).val = (x 1).val; rw [e1]; omega

/-! ## What each point writes back, and the arrays after the run -/

theorem flushed2_eq (c : Dev nD) (t : Fin cfg0.N) :
    (dats m 0 c).flushed 2 t = ((cfg0.win 2).blk t).view.read (Elt Ideal) (G16 (V m c main_v0)) := by
  show (cfg0.win 2).cut (grid0.coords t) ((dats m 0 c).after 2 t) = _
  rw [after0_2]
  funext y
  show out0_2 (F := Ideal) (iblk m c 0 t) (iblk m c 1 t) y = G16 (V m c main_v0) (((cfg0.win 2).blk t).view.emb y)
  obtain ⟨-, -, -, -, e0, e1, -⟩ := idx_facts t
  refine block16 (iblk m c 0 t) (iblk m c 1 t) (V m c main_v0) t.val
    (fun p k P hP => iblk0_apply m c t (ix2 p k) (ix2 P k) hP rfl) y _ ?_ ?_
  · show win0_2.index t 0 * 4096 + 1 * (y 0).val = t.val * 4096 + (y 0).val; rw [e0]; omega
  · show win0_2.index t 1 * 16 + 1 * (y 1).val = (y 1).val; rw [e1]; omega

theorem flushed3_eq (c : Dev nD) (t : Fin cfg0.N) :
    (dats m 0 c).flushed 3 t = ((cfg0.win 3).blk t).view.read (Elt Ideal) (G75 (V m c main_v0) (V m c main_cst)) := by
  show (cfg0.win 3).cut (grid0.coords t) ((dats m 0 c).after 3 t) = _
  rw [after0_3]
  funext y
  show out0_3 (F := Ideal) (iblk m c 0 t) (iblk m c 1 t) y = G75 (V m c main_v0) (V m c main_cst) (((cfg0.win 3).blk t).view.emb y)
  obtain ⟨-, -, -, -, -, -, e0, e1⟩ := idx_facts t
  refine block75 (iblk m c 0 t) (iblk m c 1 t) (V m c main_v0) (V m c main_cst) t.val
    (fun p k P hP => iblk0_apply m c t (ix2 p k) (ix2 P k) hP rfl) (fun e => iblk1_apply m c t (ix2 (0 : Fin 1) e)) y _ ?_ ?_
  · show win0_3.index t 0 * 4096 + 1 * (y 0).val = t.val * 4096 + (y 0).val; rw [e0]; omega
  · show win0_3.index t 1 * 75 + 1 * (y 1).val = (y 1).val; rw [e1]; omega

theorem mem_blk2 (t : Fin cfg0.N) (i : S2097152x16.Idx) :
    i ∈ ((cfg0.win 2).blk t).view.set ↔ ∀ a : Fin 2, win0_2.index t a * S4096x16.size a ≤ (i a).val ∧ (i a).val < win0_2.index t a * S4096x16.size a + S4096x16.size a := by
  show i ∈ ((View.whole main_v1_0).slice (win0_2.rect t)).set ↔ _
  rw [View.set_slice_whole, Rect.mem_set_unit]
  exact Iff.rfl

theorem mem_blk3 (t : Fin cfg0.N) (i : S2097152x75.Idx) :
    i ∈ ((cfg0.win 3).blk t).view.set ↔ ∀ a : Fin 2, win0_3.index t a * S4096x75.size a ≤ (i a).val ∧ (i a).val < win0_3.index t a * S4096x75.size a + S4096x75.size a := by
  show i ∈ ((View.whole main_v1_1).slice (win0_3.rect t)).set ↔ _
  rw [View.set_slice_whole, Rect.mem_set_unit]
  exact Iff.rfl

/-- Row r of the fused array is in the block of point r / 4096. -/
theorem cover2 (i : S2097152x16.Idx) : ∃ t : Fin cfg0.N, (cfg0.win 2).flush t = true ∧ i ∈ ((cfg0.win 2).blk t).view.set := by
  have h0 : (i 0).val < 2097152 := (i 0).isLt
  have h1 : (i 1).val < 16 := (i 1).isLt
  have hN : cfg0.N = 512 := N_0
  have ht : (i 0).val / 4096 < cfg0.N := by rw [hN]; omega
  refine ⟨⟨(i 0).val / 4096, ht⟩, flush0_2 _, ?_⟩
  rw [mem_blk2]
  obtain ⟨-, -, -, -, e0, e1, -⟩ := idx_facts ⟨(i 0).val / 4096, ht⟩
  intro a
  match a with
  | ⟨0, _⟩ =>
    show win0_2.index ⟨(i 0).val / 4096, ht⟩ 0 * 4096 ≤ (i 0).val ∧ (i 0).val < win0_2.index ⟨(i 0).val / 4096, ht⟩ 0 * 4096 + 4096
    rw [e0]; show (i 0).val / 4096 * 4096 ≤ (i 0).val ∧ (i 0).val < (i 0).val / 4096 * 4096 + 4096; omega
  | ⟨1, _⟩ =>
    show win0_2.index ⟨(i 0).val / 4096, ht⟩ 1 * 16 ≤ (i 1).val ∧ (i 1).val < win0_2.index ⟨(i 0).val / 4096, ht⟩ 1 * 16 + 16
    rw [e1]; omega

theorem cover3 (i : S2097152x75.Idx) : ∃ t : Fin cfg0.N, (cfg0.win 3).flush t = true ∧ i ∈ ((cfg0.win 3).blk t).view.set := by
  have h0 : (i 0).val < 2097152 := (i 0).isLt
  have h1 : (i 1).val < 75 := (i 1).isLt
  have hN : cfg0.N = 512 := N_0
  have ht : (i 0).val / 4096 < cfg0.N := by rw [hN]; omega
  refine ⟨⟨(i 0).val / 4096, ht⟩, flush0_3 _, ?_⟩
  rw [mem_blk3]
  obtain ⟨-, -, -, -, -, -, e0, e1⟩ := idx_facts ⟨(i 0).val / 4096, ht⟩
  intro a
  match a with
  | ⟨0, _⟩ =>
    show win0_3.index ⟨(i 0).val / 4096, ht⟩ 0 * 4096 ≤ (i 0).val ∧ (i 0).val < win0_3.index ⟨(i 0).val / 4096, ht⟩ 0 * 4096 + 4096
    rw [e0]; show (i 0).val / 4096 * 4096 ≤ (i 0).val ∧ (i 0).val < (i 0).val / 4096 * 4096 + 4096; omega
  | ⟨1, _⟩ =>
    show win0_3.index ⟨(i 0).val / 4096, ht⟩ 1 * 75 ≤ (i 1).val ∧ (i 1).val < win0_3.index ⟨(i 0).val / 4096, ht⟩ 1 * 75 + 75
    rw [e1]; omega

/-- The fused array after the run. -/
theorem final2 (c : Dev nD) : (dats m 0 c).arrAt 2 cfg0.N = G16 (V m c main_v0) :=
  (dats m 0 c).arrAt_eq_of_cover 2 (G16 (V m c main_v0)) (fun t _ => flushed2_eq m c t) cover2

/-- The harmonics array after the run. -/
theorem final3 (c : Dev nD) : (dats m 0 c).arrAt 3 cfg0.N = G75 (V m c main_v0) (V m c main_cst) :=
  (dats m 0 c).arrAt_eq_of_cover 3 (G75 (V m c main_v0) (V m c main_cst)) (fun t _ => flushed3_eq m c t) cover3

end Cert.KernelIdeal.Blocks

end
-- ==== Proof.KernelHost.lean ====
/-
  Around the region.  Before it, the [2, 1048576, 82] input is viewed flat as [2097152, 82] (row b·1048576 + n is
  point (b, n)) and the mask row is a literal table.  After it, the fused array's columns 0–8, 9–11 and 12–15 are cut
  out and viewed as [2, 1048576, 3, 3], [2, 1048576, 3] and [2, 1048576, 4], and the harmonics array as
  [2, 1048576, 3, 25] (column 25·a + d is harmonic d of colour a).  Read at one entry, each result is the entry the
  specification names.
-/
import proofs.«164973_j38001870635883_2_alg».proof.Proof.KernelBlocks
import Idealize.ShloMosaic.Lib.StableHlo.Run
import Idealize.ShloMosaic.Lib.ValueLayout

noncomputable section

namespace Cert.KernelIdeal.Host

open Idealize.ShloMosaic Idealize.ShloMosaic.TcCoe Idealize.ShloMosaic.ValueIdx Idealize.SL.Sem Idealize.ShloMosaic.StableHlo
open Cert.KernelIdeal Cert.KernelIdeal.Gen Cert.Gauss Cert.KernelIdeal.Blocks
open Idealize.ShloMosaic.Pipeline (Dat)

/-! ## Columns of the fused array, by group -/

theorem fused_cov (A : S2097152x82.Idx → EReal) (P : Fin 2097152) (c : Fin 16) (a c' : Fin 3) (h : c.val = 3 * a.val + c'.val) :
    fused A P c = cov (unitq (bigQ A P)) (bigS A P) a c' := by
  unfold fused
  rw [dif_pos (by omega)]
  exact congrArg₂ (cov _ _) (Fin.ext (by show c.val / 3 = a.val; omega)) (Fin.ext (by show c.val % 3 = c'.val; omega))

theorem fused_scale (A : S2097152x82.Idx → EReal) (P : Fin 2097152) (c : Fin 16) (e : Fin 3) (h : c.val = 9 + e.val) :
    fused A P c = bigS A P e := by
  unfold fused
  rw [dif_neg (by omega), dif_pos (by omega)]
  exact congrArg (bigS A P) (Fin.ext (by show c.val - 9 = e.val; omega))

theorem fused_quat (A : S2097152x82.Idx → EReal) (P : Fin 2097152) (c : Fin 16) (k : Fin 4) (h : c.val = 12 + k.val) :
    fused A P c = unitq (bigQ A P) k := by
  unfold fused
  rw [dif_neg (by omega), dif_neg (by omega)]
  exact congrArg (unitq (bigQ A P)) (Fin.ext (by show c.val - 12 = k.val; omega))

/-! ## The flat view of the input -/

section Flat
variable (x : S2x1048576x82.Idx → EReal)

def flat : S2097152x82.Idx → EReal := shapeCast S2097152x82 x shapeCasts_S2x1048576x82_S2097152x82

/-- Row b·1048576 + n of the flat view is point (b, n). -/
theorem flat_at (b : Fin 2) (n : Fin 1048576) (k : Fin 82) (P : Fin 2097152) (hP : P.val = b.val * 1048576 + n.val) :
    flat x (ix2 P k) = x (ix3 b n k) :=
  shapeCast_apply x _ (ix2 P k) (ix3 b n k) (by
    rw [Shape.rowMajor_val_three, Shape.rowMajor_val_two]
    show (b.val * 1048576 + n.val) * 82 + k.val = P.val * 82 + k.val
    rw [hP])

theorem bigQ_flat (b : Fin 2) (n : Fin 1048576) (P : Fin 2097152) (hP : P.val = b.val * 1048576 + n.val) :
    bigQ (flat x) P = rawQuat x b n := funext fun k => flat_at x b n _ P hP
theorem bigS_flat (b : Fin 2) (n : Fin 1048576) (P : Fin 2097152) (hP : P.val = b.val * 1048576 + n.val) :
    bigS (flat x) P = scaleAt x b n := funext fun e => congrArg scale (flat_at x b n _ P hP)

/-- The row of point (b, n). -/
def rowOf (b : Fin 2) (n : Fin 1048576) : Fin 2097152 := ⟨b.val * 1048576 + n.val, by omega⟩

/-! ## The four results, entry by entry -/

theorem cov_read (b : Fin 2) (n : Fin 1048576) (a c : Fin 3) :
    shapeCast S2x1048576x3x3 (extractStridedSlice S2097152x9 ![0, 0] (G16 (flat x)) slices_S2097152x16_S2097152x9_0_0)
      shapeCasts_S2097152x9_S2x1048576x3x3 (ix4 b n a c) = covAt x b n a c := by
  refine (shapeCast_apply _ _ (ix4 b n a c) (ix2 (rowOf b n) (⟨3 * a.val + c.val, by omega⟩ : Fin 9)) (by
    rw [Shape.rowMajor_val_two, Shape.rowMajor_val_four]
    show (b.val * 1048576 + n.val) * 9 + (3 * a.val + c.val) = ((b.val * 1048576 + n.val) * 3 + a.val) * 3 + c.val
    omega)).trans ?_
  refine (slice2_axis1_apply (n0 := 2097152) (n1 := 16) (m := 9) 0 (G16 (flat x)) _ (rowOf b n) _
    (⟨3 * a.val + c.val, by omega⟩ : Fin 16) (by simp)).trans ?_
  show fused (flat x) (rowOf b n) _ = _
  rw [fused_cov (flat x) (rowOf b n) _ a c rfl, bigQ_flat x b n (rowOf b n) rfl, bigS_flat x b n (rowOf b n) rfl]
  rfl

theorem scale_read (b : Fin 2) (n : Fin 1048576) (e : Fin 3) :
    shapeCast S2x1048576x3 (extractStridedSlice S2097152x3 ![0, 9] (G16 (flat x)) slices_S2097152x16_S2097152x3_0_9)
      shapeCasts_S2097152x3_S2x1048576x3 (ix3 b n e) = scaleAt x b n e := by
  refine (shapeCast_apply _ _ (ix3 b n e) (ix2 (rowOf b n) e) (by
    rw [Shape.rowMajor_val_two, Shape.rowMajor_val_three]
    rfl)).trans ?_
  refine (slice2_axis1_apply (n0 := 2097152) (n1 := 16) (m := 3) 9 (G16 (flat x)) _ (rowOf b n) e
    (⟨9 + e.val, by omega⟩ : Fin 16) rfl).trans ?_
  show fused (flat x) (rowOf b n) _ = _
  rw [fused_scale (flat x) (rowOf b n) _ e rfl, bigS_flat x b n (rowOf b n) rfl]

theorem quat_read (b : Fin 2) (n : Fin 1048576) (k : Fin 4) :
    shapeCast S2x1048576x4 (extractStridedSlice S2097152x4 ![0, 12] (G16 (flat x)) slices_S2097152x16_S2097152x4_0_12)
      shapeCasts_S2097152x4_S2x1048576x4 (ix3 b n k) = quatAt x b n k := by
  refine (shapeCast_apply _ _ (ix3 b n k) (ix2 (rowOf b n) k) (by
    rw [Shape.rowMajor_val_two, Shape.rowMajor_val_three]
    rfl)).trans ?_
  refine (slice2_axis1_apply (n0 := 2097152) (n1 := 16) (m := 4) 12 (G16 (flat x)) _ (rowOf b n) k
    (⟨12 + k.val, by omega⟩ : Fin 16) rfl).trans ?_
  show fused (flat x) (rowOf b n) _ = _
  rw [fused_quat (flat x) (rowOf b n) _ k rfl, bigQ_flat x b n (rowOf b n) rfl]
  rfl

/-- The kernel's mask row repeats the 25-entry mask three times. -/
theorem lit_mask : ∀ (a : Fin 3) (d : Fin 25), lit0 ⟨25 * a.val + d.val, by omega⟩ = maskWord d := by decide

/-- The mask row as the region finds it. -/
def maskRow : S1x75.Idx → EReal := fun i => Ideal.ofBits .f32 (lit0 (S1x75.rowMajor i))

theorem maskRow_at (a : Fin 3) (d : Fin 25) : maskRow (ix2 (0 : Fin 1) (⟨25 * a.val + d.val, by omega⟩ : Fin 75)) = mask d := by
  show Ideal.ofBits .f32 (lit0 (S1x75.rowMajor (ix2 (0 : Fin 1) (⟨25 * a.val + d.val, by omega⟩ : Fin 75)))) = Ideal.ofBits .f32 (maskWord d)
  rw [← lit_mask a d]
  refine congrArg (fun w => Ideal.ofBits .f32 (lit0 w)) (Fin.ext ?_)
  rw [Shape.rowMajor_val_two]
  show 0 * 75 + (25 * a.val + d.val) = 25 * a.val + d.val
  omega

theorem sh_read (b : Fin 2) (n : Fin 1048576) (a : Fin 3) (d : Fin 25) :
    shapeCast S2x1048576x3x25 (G75 (flat x) maskRow) shapeCasts_S2097152x75_S2x1048576x3x25 (ix4 b n a d) = shAt x b n a d := by
  refine (shapeCast_apply _ _ (ix4 b n a d) (ix2 (rowOf b n) (⟨25 * a.val + d.val, by omega⟩ : Fin 75)) (by
    rw [Shape.rowMajor_val_two, Shape.rowMajor_val_four]
    show (b.val * 1048576 + n.val) * 75 + (25 * a.val + d.val) = ((b.val * 1048576 + n.val) * 3 + a.val) * 25 + d.val
    omega)).trans ?_
  show harm (flat x) maskRow (rowOf b n) ⟨25 * a.val + d.val, _⟩ = _
  unfold harm
  rw [flat_at x b n _ (rowOf b n) rfl, maskRow_at]
  refine congrArg (fun z => x (ix3 b n z) * mask d) (Fin.ext ?_)
  show 7 + (25 * a.val + d.val) = 7 + 25 * a.val + d.val
  omega

end Flat

/-! ## The run -/

variable (m : (ℓ : Loc nD τ sig) → Buf (Elt Ideal) ℓ) (ρ : Dev nD → PrngReg)

theorem V_main_v0 (c : Dev nD) :
    (V m c main_v0 : S2097152x82.Idx → EReal) = flat (m ((c.tc : Thread nD τ).loc main_arg2)) := by
  show StableHlo.after hostOps0 (fun b => m (c, b)) (Proc.devRef .tc main_v0) = _
  after_results
  rfl

theorem V_main_cst (c : Dev nD) : (V m c main_cst : S1x75.Idx → EReal) = maskRow := by
  show StableHlo.after hostOps0 (fun b => m (c, b)) (Proc.devRef .tc main_cst) = _
  after_results
  rfl

/-- The fused array and the harmonics array as the lines after the region find them. -/
theorem arr2 (c : Dev nD) :
    Pipeline.withArrays spec0 c (V0 m c) (fun w => (dats m 0 c).arrAt w cfg0.N) (Proc.devRef .tc main_v1_0)
      = G16 (flat (m ((c.tc : Thread nD τ).loc main_arg2))) :=
  ((Pipeline.withArrays_arr spec0 launch0.win.arr_inj c (V0 m c) (fun w => (dats m 0 c).arrAt w cfg0.N) 2).trans (final2 m c)).trans
    (congrArg G16 (V_main_v0 m c))

theorem arr3 (c : Dev nD) :
    Pipeline.withArrays spec0 c (V0 m c) (fun w => (dats m 0 c).arrAt w cfg0.N) (Proc.devRef .tc main_v1_1)
      = G75 (flat (m ((c.tc : Thread nD τ).loc main_arg2))) maskRow :=
  ((Pipeline.withArrays_arr spec0 launch0.win.arr_inj c (V0 m c) (fun w => (dats m 0 c).arrAt w cfg0.N) 3).trans (final3 m c)).trans
    (congrArg₂ G75 (V_main_v0 m c) (V_main_cst m c))

theorem tail_v5 (c : Dev nD) : Pipeline.afterTail₀ cfgs (dats m) 0 (V0 m) [hostOps1] c main_v5
    = covArr (m ((c.tc : Thread nD τ).loc main_arg2)) := by
  unfold Pipeline.afterTail₀
  show StableHlo.after hostOps1 _ (Proc.devRef .tc main_v5) = _
  after_results
  rw [arr2 m c]
  funext y
  obtain ⟨b, n, a, c', rfl⟩ : ∃ (b : Fin 2) (n : Fin 1048576) (a c' : Fin 3), y = ix4 b n a c' := ⟨y 0, y 1, y 2, y 3, eq_ix4 y⟩
  exact cov_read _ b n a c'

theorem tail_v6 (c : Dev nD) : Pipeline.afterTail₀ cfgs (dats m) 0 (V0 m) [hostOps1] c main_v6
    = scaleArr (m ((c.tc : Thread nD τ).loc main_arg2)) := by
  unfold Pipeline.afterTail₀
  show StableHlo.after hostOps1 _ (Proc.devRef .tc main_v6) = _
  after_results
  rw [arr2 m c]
  funext y
  obtain ⟨b, n, e, rfl⟩ : ∃ (b : Fin 2) (n : Fin 1048576) (e : Fin 3), y = ix3 b n e := ⟨y 0, y 1, y 2, eq_ix3 y⟩
  exact scale_read _ b n e

theorem tail_v7 (c : Dev nD) : Pipeline.afterTail₀ cfgs (dats m) 0 (V0 m) [hostOps1] c main_v7
    = quatArr (m ((c.tc : Thread nD τ).loc main_arg2)) := by
  unfold Pipeline.afterTail₀
  show StableHlo.after hostOps1 _ (Proc.devRef .tc main_v7) = _
  after_results
  rw [arr2 m c]
  funext y
  obtain ⟨b, n, k, rfl⟩ : ∃ (b : Fin 2) (n : Fin 1048576) (k : Fin 4), y = ix3 b n k := ⟨y 0, y 1, y 2, eq_ix3 y⟩
  exact quat_read _ b n k

theorem tail_v8 (c : Dev nD) : Pipeline.afterTail₀ cfgs (dats m) 0 (V0 m) [hostOps1] c main_v8
    = shArr (m ((c.tc : Thread nD τ).loc main_arg2)) := by
  unfold Pipeline.afterTail₀
  show StableHlo.after hostOps1 _ (Proc.devRef .tc main_v8) = _
  after_results
  rw [arr3 m c]
  funext y
  obtain ⟨b, n, a, d, rfl⟩ : ∃ (b : Fin 2) (n : Fin 1048576) (a : Fin 3) (d : Fin 25), y = ix4 b n a d := ⟨y 0, y 1, y 2, y 3, eq_ix4 y⟩
  exact sh_read _ b n a d

/-- Every weakly fair execution of the idealized kernel program ends with the four computed results at the
    specification's arrays of the raw input, and the three arguments as launched. -/
theorem run : θ_run (defs (F := Ideal)) (onTc (τ := τ) (main (F := Ideal))) ⟨m, fun _ => 0, ρ⟩ fun r => ∀ c : Dev nD,
      r.2.mem ((c.tc : Thread nD τ).loc main_v5) = covArr (m ((c.tc : Thread nD τ).loc main_arg2))
      ∧ r.2.mem ((c.tc : Thread nD τ).loc main_v6) = scaleArr (m ((c.tc : Thread nD τ).loc main_arg2))
      ∧ r.2.mem ((c.tc : Thread nD τ).loc main_v7) = quatArr (m ((c.tc : Thread nD τ).loc main_arg2))
      ∧ r.2.mem ((c.tc : Thread nD τ).loc main_v8) = shArr (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans (tail_v5 m c),
     ((h c).2 main_v6 (Pipeline.mem_restRefs_of main_v6 (by decide) (by decide))).trans (tail_v6 m c),
     ((h c).2 main_v7 (Pipeline.mem_restRefs_of main_v7 (by decide) (by decide))).trans (tail_v7 m c),
     ((h c).2 main_v8 (Pipeline.mem_restRefs_of main_v8 (by decide) (by decide))).trans (tail_v8 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Host

end
-- ==== Proof.RefRun.lean ====
/-
  The reference program as a straight line of host operations. Its one call of the quaternion's length function is
  written out at the call site, the callee's five operations over the call's own buffers; the two halves of the
  program follow one another. Every weakly fair execution terminates with each buffer at the fold of the
  operations' results over the contents the launch started from.
-/
import proofs.«164973_j38001870635883_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The program's 123 operations, in order, the call's five in place. -/
abbrev ops : List (HloOp τ sig (Elt F)) :=
  [ StableHlo.nullary main_cst (fun i => FloatOps.ofBits .f32 (lit0 (S25.rowMajor i))),
    StableHlo.unary main_arg2 main_v0 ((extractStridedSlice S2x1048576x3 ![0, 0, 0] · slices_S2x1048576x82_S2x1048576x3_0_0_0) : (⟨S2x1048576x82, .f32⟩ : BufTy).Contents (Elt F) → (⟨S2x1048576x3, .f32⟩ : BufTy).Contents (Elt F)),
    StableHlo.unary main_arg2 main_v1 ((extractStridedSlice S2x1048576x4 ![0, 0, 3] · slices_S2x1048576x82_S2x1048576x4_0_0_3) : (⟨S2x1048576x82, .f32⟩ : BufTy).Contents (Elt F) → (⟨S2x1048576x4, .f32⟩ : BufTy).Contents (Elt F)),
    StableHlo.unary main_arg2 main_v2 ((extractStridedSlice S2x1048576x75 ![0, 0, 7] · slices_S2x1048576x82_S2x1048576x75_0_0_7) : (⟨S2x1048576x82, .f32⟩ : BufTy).Contents (Elt F) → (⟨S2x1048576x75, .f32⟩ : BufTy).Contents (Elt F)),
    StableHlo.unary main_v0 main_v3 (Host.negf : (⟨S2x1048576x3, .f32⟩ : BufTy).Contents (Elt F) → (⟨S2x1048576x3, .f32⟩ : BufTy).Contents (Elt F)),
    StableHlo.unary main_v3 main_v4 (Host.exp : (⟨S2x1048576x3, .f32⟩ : BufTy).Contents (Elt F) → (⟨S2x1048576x3, .f32⟩ : BufTy).Contents (Elt F)),
    StableHlo.nullary main_cst_0 (constant S_ .f32 0x3F800000#32),
    StableHlo.unary main_cst_0 main_v5 (broadcastInDim S2x1048576x3 ![] bcast_S_S2x1048576x3 : (⟨S_, .f32⟩ : BufTy).Contents (Elt F) → (⟨S2x1048576x3, .f32⟩ : BufTy).Contents (Elt F)),
    StableHlo.binary main_v5 main_v4 main_v6 (addf : (⟨S2x1048576x3, .f32⟩ : BufTy).Contents (Elt F) → (⟨S2x1048576x3, .f32⟩ : BufTy).Contents (Elt F) → (⟨S2x1048576x3, .f32⟩ : BufTy).Contents (Elt F)),
    StableHlo.nullary main_cst_1 (constant S_ .f32 0x3F800000#32),
    StableHlo.unary main_cst_1 main_v7 (broadcastInDim S2x1048576x3 ![] bcast_S_S2x1048576x3 : (⟨S_, .f32⟩ : BufTy).Contents (Elt F) → (⟨S2x1048576x3, .f32⟩ : BufTy).Contents (Elt F)),
    StableHlo.binary main_v7 main_v6 main_v8 (Host.divf : (⟨S2x1048576x3, .f32⟩ : BufTy).Contents (Elt F) → (⟨S2x1048576x3, .f32⟩ : BufTy).Contents (Elt F) → (⟨S2x1048576x3, .f32⟩ : BufTy).Contents (Elt F)),
    StableHlo.nullary main_cst_2 (constant S_ .f32 0x41680000#32),
    StableHlo.unary main_cst_2 main_v9 (broadcastInDim S2x1048576x3 ![] bcast_S_S2x1048576x3 : (⟨S_, .f32⟩ : BufTy).Contents (Elt F) → (⟨S2x1048576x3, .f32⟩ : BufTy).Contents (Elt F)),
    StableHlo.binary main_v9 main_v8 main_v10 (mulf : (⟨S2x1048576x3, .f32⟩ : BufTy).Contents (Elt F) → (⟨S2x1048576x3, .f32⟩ : BufTy).Contents (Elt F) → (⟨S2x1048576x3, .f32⟩ : BufTy).Contents (Elt F)),
    StableHlo.nullary main_cst_3 (constant S_ .f32 0x3F000000#32),
    StableHlo.unary main_cst_3 main_v11 (broadcastInDim S2x1048576x3 ![] bcast_S_S2x1048576x3 : (⟨S_, .f32⟩ : BufTy).Contents (Elt F) → (⟨S2x1048576x3, .f32⟩ : BufTy).Contents (Elt F)),
    StableHlo.binary main_v11 main_v10 main_v12 (addf : (⟨S2x1048576x3, .f32⟩ : BufTy).Contents (Elt F) → (⟨S2x1048576x3, .f32⟩ : BufTy).Contents (Elt F) → (⟨S2x1048576x3, .f32⟩ : BufTy).Contents (Elt F)),
    StableHlo.TRef.binary (.of main_v1) (.of main_v1) main_call0.v0 mulf,
    StableHlo.TRef.nullary main_call0.cst (constant S_ .f32 0x00000000#32),
    StableHlo.TRef.binary main_call0.v0 main_call0.cst main_call0.v1 (fun x v => Host.reduceAdd x v reducesTo_S2x1048576x4_S2x1048576_d2 h_S_),
    StableHlo.TRef.unary main_call0.v1 main_call0.v2 (broadcastInDim S2x1048576x1 ![0, 1] bcast_S2x1048576_S2x1048576x1_0_1),
    StableHlo.TRef.unary main_call0.v2 main_call0.v3 Host.sqrt,
    StableHlo.nullary main_cst_4 (constant S_ .f32 0x322BCC77#32),
    StableHlo.unary main_cst_4 main_v14 (broadcastInDim S2x1048576x1 ![] bcast_S_S2x1048576x1 : (⟨S_, .f32⟩ : BufTy).Contents (Elt F) → (⟨S2x1048576x1, .f32⟩ : BufTy).Contents (Elt F)),
    StableHlo.binary main_v13 main_v14 main_v15 (addf : (⟨S2x1048576x1, .f32⟩ : BufTy).Contents (Elt F) → (⟨S2x1048576x1, .f32⟩ : BufTy).Contents (Elt F) → (⟨S2x1048576x1, .f32⟩ : BufTy).Contents (Elt F)),
    StableHlo.unary main_v15 main_v16 (broadcastInDim S2x1048576x4 ![0, 1, 2] bcast_S2x1048576x1_S2x1048576x4_0_1_2 : (⟨S2x1048576x1, .f32⟩ : BufTy).Contents (Elt F) → (⟨S2x1048576x4, .f32⟩ : BufTy).Contents (Elt F)),
    StableHlo.binary main_v1 main_v16 main_v17 (Host.divf : (⟨S2x1048576x4, .f32⟩ : BufTy).Contents (Elt F) → (⟨S2x1048576x4, .f32⟩ : BufTy).Contents (Elt F) → (⟨S2x1048576x4, .f32⟩ : BufTy).Contents (Elt F)),
    StableHlo.reshape main_v2 main_v18 rfl shapeCasts_S2x1048576x75_S2x1048576x3x25,
    StableHlo.unary main_cst main_v19 (broadcastInDim S1x1x1x25 ![3] bcast_S25_S1x1x1x25_3 : (⟨S25, .f32⟩ : BufTy).Contents (Elt F) → (⟨S1x1x1x25, .f32⟩ : BufTy).Contents (Elt F)),
    StableHlo.unary main_v19 main_v20 (broadcastInDim S2x1048576x3x25 ![0, 1, 2, 3] bcast_S1x1x1x25_S2x1048576x3x25_0_1_2_3 : (⟨S1x1x1x25, .f32⟩ : BufTy).Contents (Elt F) → (⟨S2x1048576x3x25, .f32⟩ : BufTy).Contents (Elt F)),
    StableHlo.binary main_v18 main_v20 main_v21 (mulf : (⟨S2x1048576x3x25, .f32⟩ : BufTy).Contents (Elt F) → (⟨S2x1048576x3x25, .f32⟩ : BufTy).Contents (Elt F) → (⟨S2x1048576x3x25, .f32⟩ : BufTy).Contents (Elt F)),
    StableHlo.unary main_v17 main_v22 ((extractStridedSlice S2x1048576x1 ![0, 0, 0] · slices_S2x1048576x4_S2x1048576x1_0_0_0) : (⟨S2x1048576x4, .f32⟩ : BufTy).Contents (Elt F) → (⟨S2x1048576x1, .f32⟩ : BufTy).Contents (Elt F)),
    StableHlo.reshape main_v22 main_v23 rfl shapeCasts_S2x1048576x1_S2x1048576,
    StableHlo.unary main_v17 main_v24 ((extractStridedSlice S2x1048576x1 ![0, 0, 1] · slices_S2x1048576x4_S2x1048576x1_0_0_1) : (⟨S2x1048576x4, .f32⟩ : BufTy).Contents (Elt F) → (⟨S2x1048576x1, .f32⟩ : BufTy).Contents (Elt F)),
    StableHlo.reshape main_v24 main_v25 rfl shapeCasts_S2x1048576x1_S2x1048576,
    StableHlo.unary main_v17 main_v26 ((extractStridedSlice S2x1048576x1 ![0, 0, 2] · slices_S2x1048576x4_S2x1048576x1_0_0_2) : (⟨S2x1048576x4, .f32⟩ : BufTy).Contents (Elt F) → (⟨S2x1048576x1, .f32⟩ : BufTy).Contents (Elt F)),
    StableHlo.reshape main_v26 main_v27 rfl shapeCasts_S2x1048576x1_S2x1048576,
    StableHlo.unary main_v17 main_v28 ((extractStridedSlice S2x1048576x1 ![0, 0, 3] · slices_S2x1048576x4_S2x1048576x1_0_0_3) : (⟨S2x1048576x4, .f32⟩ : BufTy).Contents (Elt F) → (⟨S2x1048576x1, .f32⟩ : BufTy).Contents (Elt F)),
    StableHlo.reshape main_v28 main_v29 rfl shapeCasts_S2x1048576x1_S2x1048576,
    StableHlo.binary main_v27 main_v27 main_v30 (mulf : (⟨S2x1048576, .f32⟩ : BufTy).Contents (Elt F) → (⟨S2x1048576, .f32⟩ : BufTy).Contents (Elt F) → (⟨S2x1048576, .f32⟩ : BufTy).Contents (Elt F)),
    StableHlo.binary main_v29 main_v29 main_v31 (mulf : (⟨S2x1048576, .f32⟩ : BufTy).Contents (Elt F) → (⟨S2x1048576, .f32⟩ : BufTy).Contents (Elt F) → (⟨S2x1048576, .f32⟩ : BufTy).Contents (Elt F)),
    StableHlo.binary main_v30 main_v31 main_v32 (addf : (⟨S2x1048576, .f32⟩ : BufTy).Contents (Elt F) → (⟨S2x1048576, .f32⟩ : BufTy).Contents (Elt F) → (⟨S2x1048576, .f32⟩ : BufTy).Contents (Elt F)),
    StableHlo.nullary main_cst_5 (constant S_ .f32 0x40000000#32),
    StableHlo.unary main_cst_5 main_v33 (broadcastInDim S2x1048576 ![] bcast_S_S2x1048576 : (⟨S_, .f32⟩ : BufTy).Contents (Elt F) → (⟨S2x1048576, .f32⟩ : BufTy).Contents (Elt F)),
    StableHlo.binary main_v33 main_v32 main_v34 (mulf : (⟨S2x1048576, .f32⟩ : BufTy).Contents (Elt F) → (⟨S2x1048576, .f32⟩ : BufTy).Contents (Elt F) → (⟨S2x1048576, .f32⟩ : BufTy).Contents (Elt F)),
    StableHlo.nullary main_cst_6 (constant S_ .f32 0x3F800000#32),
    StableHlo.unary main_cst_6 main_v35 (broadcastInDim S2x1048576 ![] bcast_S_S2x1048576 : (⟨S_, .f32⟩ : BufTy).Contents (Elt F) → (⟨S2x1048576, .f32⟩ : BufTy).Contents (Elt F)),
    StableHlo.binary main_v35 main_v34 main_v36 (subf : (⟨S2x1048576, .f32⟩ : BufTy).Contents (Elt F) → (⟨S2x1048576, .f32⟩ : BufTy).Contents (Elt F) → (⟨S2x1048576, .f32⟩ : BufTy).Contents (Elt F)),
    StableHlo.binary main_v25 main_v27 main_v37 (mulf : (⟨S2x1048576, .f32⟩ : BufTy).Contents (Elt F) → (⟨S2x1048576, .f32⟩ : BufTy).Contents (Elt F) → (⟨S2x1048576, .f32⟩ : BufTy).Contents (Elt F)),
    StableHlo.binary main_v29 main_v23 main_v38 (mulf : (⟨S2x1048576, .f32⟩ : BufTy).Contents (Elt F) → (⟨S2x1048576, .f32⟩ : BufTy).Contents (Elt F) → (⟨S2x1048576, .f32⟩ : BufTy).Contents (Elt F)),
    StableHlo.binary main_v37 main_v38 main_v39 (subf : (⟨S2x1048576, .f32⟩ : BufTy).Contents (Elt F) → (⟨S2x1048576, .f32⟩ : BufTy).Contents (Elt F) → (⟨S2x1048576, .f32⟩ : BufTy).Contents (Elt F)),
    StableHlo.nullary main_cst_7 (constant S_ .f32 0x40000000#32),
    StableHlo.unary main_cst_7 main_v40 (broadcastInDim S2x1048576 ![] bcast_S_S2x1048576 : (⟨S_, .f32⟩ : BufTy).Contents (Elt F) → (⟨S2x1048576, .f32⟩ : BufTy).Contents (Elt F)),
    StableHlo.binary main_v40 main_v39 main_v41 (mulf : (⟨S2x1048576, .f32⟩ : BufTy).Contents (Elt F) → (⟨S2x1048576, .f32⟩ : BufTy).Contents (Elt F) → (⟨S2x1048576, .f32⟩ : BufTy).Contents (Elt F)),
    StableHlo.binary main_v25 main_v29 main_v42 (mulf : (⟨S2x1048576, .f32⟩ : BufTy).Contents (Elt F) → (⟨S2x1048576, .f32⟩ : BufTy).Contents (Elt F) → (⟨S2x1048576, .f32⟩ : BufTy).Contents (Elt F)),
    StableHlo.binary main_v27 main_v23 main_v43 (mulf : (⟨S2x1048576, .f32⟩ : BufTy).Contents (Elt F) → (⟨S2x1048576, .f32⟩ : BufTy).Contents (Elt F) → (⟨S2x1048576, .f32⟩ : BufTy).Contents (Elt F)),
    StableHlo.binary main_v42 main_v43 main_v44 (addf : (⟨S2x1048576, .f32⟩ : BufTy).Contents (Elt F) → (⟨S2x1048576, .f32⟩ : BufTy).Contents (Elt F) → (⟨S2x1048576, .f32⟩ : BufTy).Contents (Elt F)),
    StableHlo.nullary main_cst_8 (constant S_ .f32 0x40000000#32),
    StableHlo.unary main_cst_8 main_v45 (broadcastInDim S2x1048576 ![] bcast_S_S2x1048576 : (⟨S_, .f32⟩ : BufTy).Contents (Elt F) → (⟨S2x1048576, .f32⟩ : BufTy).Contents (Elt F)),
    StableHlo.binary main_v45 main_v44 main_v46 (mulf : (⟨S2x1048576, .f32⟩ : BufTy).Contents (Elt F) → (⟨S2x1048576, .f32⟩ : BufTy).Contents (Elt F) → (⟨S2x1048576, .f32⟩ : BufTy).Contents (Elt F)),
    StableHlo.unary main_v36 main_v47 (broadcastInDim S2x1048576x1 ![0, 1] bcast_S2x1048576_S2x1048576x1_0_1 : (⟨S2x1048576, .f32⟩ : BufTy).Contents (Elt F) → (⟨S2x1048576x1, .f32⟩ : BufTy).Contents (Elt F)),
    StableHlo.unary main_v41 main_v48 (broadcastInDim S2x1048576x1 ![0, 1] bcast_S2x1048576_S2x1048576x1_0_1 : (⟨S2x1048576, .f32⟩ : BufTy).Contents (Elt F) → (⟨S2x1048576x1, .f32⟩ : BufTy).Contents (Elt F)),
    StableHlo.unary main_v46 main_v49 (broadcastInDim S2x1048576x1 ![0, 1] bcast_S2x1048576_S2x1048576x1_0_1 : (⟨S2x1048576, .f32⟩ : BufTy).Contents (Elt F) → (⟨S2x1048576x1, .f32⟩ : BufTy).Contents (Elt F)),
    StableHlo.nary ![main_v47, main_v48, main_v49] main_v50 (fun u => concatenate S2x1048576x3 2 [⟨S2x1048576x1, u 0⟩, ⟨S2x1048576x1, u 1⟩, ⟨S2x1048576x1, u 2⟩] concatenates_S2x1048576x1_S2x1048576x1_S2x1048576x1_S2x1048576x3_d2),
    StableHlo.binary main_v25 main_v27 main_v51 (mulf : (⟨S2x1048576, .f32⟩ : BufTy).Contents (Elt F) → (⟨S2x1048576, .f32⟩ : BufTy).Contents (Elt F) → (⟨S2x1048576, .f32⟩ : BufTy).Contents (Elt F)),
    StableHlo.binary main_v29 main_v23 main_v52 (mulf : (⟨S2x1048576, .f32⟩ : BufTy).Contents (Elt F) → (⟨S2x1048576, .f32⟩ : BufTy).Contents (Elt F) → (⟨S2x1048576, .f32⟩ : BufTy).Contents (Elt F)),
    StableHlo.binary main_v51 main_v52 main_v53 (addf : (⟨S2x1048576, .f32⟩ : BufTy).Contents (Elt F) → (⟨S2x1048576, .f32⟩ : BufTy).Contents (Elt F) → (⟨S2x1048576, .f32⟩ : BufTy).Contents (Elt F)),
    StableHlo.nullary main_cst_9 (constant S_ .f32 0x40000000#32),
    StableHlo.unary main_cst_9 main_v54 (broadcastInDim S2x1048576 ![] bcast_S_S2x1048576 : (⟨S_, .f32⟩ : BufTy).Contents (Elt F) → (⟨S2x1048576, .f32⟩ : BufTy).Contents (Elt F)),
    StableHlo.binary main_v54 main_v53 main_v55 (mulf : (⟨S2x1048576, .f32⟩ : BufTy).Contents (Elt F) → (⟨S2x1048576, .f32⟩ : BufTy).Contents (Elt F) → (⟨S2x1048576, .f32⟩ : BufTy).Contents (Elt F)),
    StableHlo.binary main_v25 main_v25 main_v56 (mulf : (⟨S2x1048576, .f32⟩ : BufTy).Contents (Elt F) → (⟨S2x1048576, .f32⟩ : BufTy).Contents (Elt F) → (⟨S2x1048576, .f32⟩ : BufTy).Contents (Elt F)),
    StableHlo.binary main_v29 main_v29 main_v57 (mulf : (⟨S2x1048576, .f32⟩ : BufTy).Contents (Elt F) → (⟨S2x1048576, .f32⟩ : BufTy).Contents (Elt F) → (⟨S2x1048576, .f32⟩ : BufTy).Contents (Elt F)),
    StableHlo.binary main_v56 main_v57 main_v58 (addf : (⟨S2x1048576, .f32⟩ : BufTy).Contents (Elt F) → (⟨S2x1048576, .f32⟩ : BufTy).Contents (Elt F) → (⟨S2x1048576, .f32⟩ : BufTy).Contents (Elt F)),
    StableHlo.nullary main_cst_10 (constant S_ .f32 0x40000000#32),
    StableHlo.unary main_cst_10 main_v59 (broadcastInDim S2x1048576 ![] bcast_S_S2x1048576 : (⟨S_, .f32⟩ : BufTy).Contents (Elt F) → (⟨S2x1048576, .f32⟩ : BufTy).Contents (Elt F)),
    StableHlo.binary main_v59 main_v58 main_v60 (mulf : (⟨S2x1048576, .f32⟩ : BufTy).Contents (Elt F) → (⟨S2x1048576, .f32⟩ : BufTy).Contents (Elt F) → (⟨S2x1048576, .f32⟩ : BufTy).Contents (Elt F)),
    StableHlo.nullary main_cst_11 (constant S_ .f32 0x3F800000#32),
    StableHlo.unary main_cst_11 main_v61 (broadcastInDim S2x1048576 ![] bcast_S_S2x1048576 : (⟨S_, .f32⟩ : BufTy).Contents (Elt F) → (⟨S2x1048576, .f32⟩ : BufTy).Contents (Elt F)),
    StableHlo.binary main_v61 main_v60 main_v62 (subf : (⟨S2x1048576, .f32⟩ : BufTy).Contents (Elt F) → (⟨S2x1048576, .f32⟩ : BufTy).Contents (Elt F) → (⟨S2x1048576, .f32⟩ : BufTy).Contents (Elt F)),
    StableHlo.binary main_v27 main_v29 main_v63 (mulf : (⟨S2x1048576, .f32⟩ : BufTy).Contents (Elt F) → (⟨S2x1048576, .f32⟩ : BufTy).Contents (Elt F) → (⟨S2x1048576, .f32⟩ : BufTy).Contents (Elt F)),
    StableHlo.binary main_v25 main_v23 main_v64 (mulf : (⟨S2x1048576, .f32⟩ : BufTy).Contents (Elt F) → (⟨S2x1048576, .f32⟩ : BufTy).Contents (Elt F) → (⟨S2x1048576, .f32⟩ : BufTy).Contents (Elt F)),
    StableHlo.binary main_v63 main_v64 main_v65 (subf : (⟨S2x1048576, .f32⟩ : BufTy).Contents (Elt F) → (⟨S2x1048576, .f32⟩ : BufTy).Contents (Elt F) → (⟨S2x1048576, .f32⟩ : BufTy).Contents (Elt F)),
    StableHlo.nullary main_cst_12 (constant S_ .f32 0x40000000#32),
    StableHlo.unary main_cst_12 main_v66 (broadcastInDim S2x1048576 ![] bcast_S_S2x1048576 : (⟨S_, .f32⟩ : BufTy).Contents (Elt F) → (⟨S2x1048576, .f32⟩ : BufTy).Contents (Elt F)),
    StableHlo.binary main_v66 main_v65 main_v67 (mulf : (⟨S2x1048576, .f32⟩ : BufTy).Contents (Elt F) → (⟨S2x1048576, .f32⟩ : BufTy).Contents (Elt F) → (⟨S2x1048576, .f32⟩ : BufTy).Contents (Elt F)),
    StableHlo.unary main_v55 main_v68 (broadcastInDim S2x1048576x1 ![0, 1] bcast_S2x1048576_S2x1048576x1_0_1 : (⟨S2x1048576, .f32⟩ : BufTy).Contents (Elt F) → (⟨S2x1048576x1, .f32⟩ : BufTy).Contents (Elt F)),
    StableHlo.unary main_v62 main_v69 (broadcastInDim S2x1048576x1 ![0, 1] bcast_S2x1048576_S2x1048576x1_0_1 : (⟨S2x1048576, .f32⟩ : BufTy).Contents (Elt F) → (⟨S2x1048576x1, .f32⟩ : BufTy).Contents (Elt F)),
    StableHlo.unary main_v67 main_v70 (broadcastInDim S2x1048576x1 ![0, 1] bcast_S2x1048576_S2x1048576x1_0_1 : (⟨S2x1048576, .f32⟩ : BufTy).Contents (Elt F) → (⟨S2x1048576x1, .f32⟩ : BufTy).Contents (Elt F)),
    StableHlo.nary ![main_v68, main_v69, main_v70] main_v71 (fun u => concatenate S2x1048576x3 2 [⟨S2x1048576x1, u 0⟩, ⟨S2x1048576x1, u 1⟩, ⟨S2x1048576x1, u 2⟩] concatenates_S2x1048576x1_S2x1048576x1_S2x1048576x1_S2x1048576x3_d2),
    StableHlo.binary main_v25 main_v29 main_v72 (mulf : (⟨S2x1048576, .f32⟩ : BufTy).Contents (Elt F) → (⟨S2x1048576, .f32⟩ : BufTy).Contents (Elt F) → (⟨S2x1048576, .f32⟩ : BufTy).Contents (Elt F)),
    StableHlo.binary main_v27 main_v23 main_v73 (mulf : (⟨S2x1048576, .f32⟩ : BufTy).Contents (Elt F) → (⟨S2x1048576, .f32⟩ : BufTy).Contents (Elt F) → (⟨S2x1048576, .f32⟩ : BufTy).Contents (Elt F)),
    StableHlo.binary main_v72 main_v73 main_v74 (subf : (⟨S2x1048576, .f32⟩ : BufTy).Contents (Elt F) → (⟨S2x1048576, .f32⟩ : BufTy).Contents (Elt F) → (⟨S2x1048576, .f32⟩ : BufTy).Contents (Elt F)),
    StableHlo.nullary main_cst_13 (constant S_ .f32 0x40000000#32),
    StableHlo.unary main_cst_13 main_v75 (broadcastInDim S2x1048576 ![] bcast_S_S2x1048576 : (⟨S_, .f32⟩ : BufTy).Contents (Elt F) → (⟨S2x1048576, .f32⟩ : BufTy).Contents (Elt F)),
    StableHlo.binary main_v75 main_v74 main_v76 (mulf : (⟨S2x1048576, .f32⟩ : BufTy).Contents (Elt F) → (⟨S2x1048576, .f32⟩ : BufTy).Contents (Elt F) → (⟨S2x1048576, .f32⟩ : BufTy).Contents (Elt F)),
    StableHlo.binary main_v27 main_v29 main_v77 (mulf : (⟨S2x1048576, .f32⟩ : BufTy).Contents (Elt F) → (⟨S2x1048576, .f32⟩ : BufTy).Contents (Elt F) → (⟨S2x1048576, .f32⟩ : BufTy).Contents (Elt F)),
    StableHlo.binary main_v25 main_v23 main_v78 (mulf : (⟨S2x1048576, .f32⟩ : BufTy).Contents (Elt F) → (⟨S2x1048576, .f32⟩ : BufTy).Contents (Elt F) → (⟨S2x1048576, .f32⟩ : BufTy).Contents (Elt F)),
    StableHlo.binary main_v77 main_v78 main_v79 (addf : (⟨S2x1048576, .f32⟩ : BufTy).Contents (Elt F) → (⟨S2x1048576, .f32⟩ : BufTy).Contents (Elt F) → (⟨S2x1048576, .f32⟩ : BufTy).Contents (Elt F)),
    StableHlo.nullary main_cst_14 (constant S_ .f32 0x40000000#32),
    StableHlo.unary main_cst_14 main_v80 (broadcastInDim S2x1048576 ![] bcast_S_S2x1048576 : (⟨S_, .f32⟩ : BufTy).Contents (Elt F) → (⟨S2x1048576, .f32⟩ : BufTy).Contents (Elt F)),
    StableHlo.binary main_v80 main_v79 main_v81 (mulf : (⟨S2x1048576, .f32⟩ : BufTy).Contents (Elt F) → (⟨S2x1048576, .f32⟩ : BufTy).Contents (Elt F) → (⟨S2x1048576, .f32⟩ : BufTy).Contents (Elt F)),
    StableHlo.binary main_v25 main_v25 main_v82 (mulf : (⟨S2x1048576, .f32⟩ : BufTy).Contents (Elt F) → (⟨S2x1048576, .f32⟩ : BufTy).Contents (Elt F) → (⟨S2x1048576, .f32⟩ : BufTy).Contents (Elt F)),
    StableHlo.binary main_v27 main_v27 main_v83 (mulf : (⟨S2x1048576, .f32⟩ : BufTy).Contents (Elt F) → (⟨S2x1048576, .f32⟩ : BufTy).Contents (Elt F) → (⟨S2x1048576, .f32⟩ : BufTy).Contents (Elt F)),
    StableHlo.binary main_v82 main_v83 main_v84 (addf : (⟨S2x1048576, .f32⟩ : BufTy).Contents (Elt F) → (⟨S2x1048576, .f32⟩ : BufTy).Contents (Elt F) → (⟨S2x1048576, .f32⟩ : BufTy).Contents (Elt F)),
    StableHlo.nullary main_cst_15 (constant S_ .f32 0x40000000#32),
    StableHlo.unary main_cst_15 main_v85 (broadcastInDim S2x1048576 ![] bcast_S_S2x1048576 : (⟨S_, .f32⟩ : BufTy).Contents (Elt F) → (⟨S2x1048576, .f32⟩ : BufTy).Contents (Elt F)),
    StableHlo.binary main_v85 main_v84 main_v86 (mulf : (⟨S2x1048576, .f32⟩ : BufTy).Contents (Elt F) → (⟨S2x1048576, .f32⟩ : BufTy).Contents (Elt F) → (⟨S2x1048576, .f32⟩ : BufTy).Contents (Elt F)),
    StableHlo.nullary main_cst_16 (constant S_ .f32 0x3F800000#32),
    StableHlo.unary main_cst_16 main_v87 (broadcastInDim S2x1048576 ![] bcast_S_S2x1048576 : (⟨S_, .f32⟩ : BufTy).Contents (Elt F) → (⟨S2x1048576, .f32⟩ : BufTy).Contents (Elt F)),
    StableHlo.binary main_v87 main_v86 main_v88 (subf : (⟨S2x1048576, .f32⟩ : BufTy).Contents (Elt F) → (⟨S2x1048576, .f32⟩ : BufTy).Contents (Elt F) → (⟨S2x1048576, .f32⟩ : BufTy).Contents (Elt F)),
    StableHlo.unary main_v76 main_v89 (broadcastInDim S2x1048576x1 ![0, 1] bcast_S2x1048576_S2x1048576x1_0_1 : (⟨S2x1048576, .f32⟩ : BufTy).Contents (Elt F) → (⟨S2x1048576x1, .f32⟩ : BufTy).Contents (Elt F)),
    StableHlo.unary main_v81 main_v90 (broadcastInDim S2x1048576x1 ![0, 1] bcast_S2x1048576_S2x1048576x1_0_1 : (⟨S2x1048576, .f32⟩ : BufTy).Contents (Elt F) → (⟨S2x1048576x1, .f32⟩ : BufTy).Contents (Elt F)),
    StableHlo.unary main_v88 main_v91 (broadcastInDim S2x1048576x1 ![0, 1] bcast_S2x1048576_S2x1048576x1_0_1 : (⟨S2x1048576, .f32⟩ : BufTy).Contents (Elt F) → (⟨S2x1048576x1, .f32⟩ : BufTy).Contents (Elt F)),
    StableHlo.nary ![main_v89, main_v90, main_v91] main_v92 (fun u => concatenate S2x1048576x3 2 [⟨S2x1048576x1, u 0⟩, ⟨S2x1048576x1, u 1⟩, ⟨S2x1048576x1, u 2⟩] concatenates_S2x1048576x1_S2x1048576x1_S2x1048576x1_S2x1048576x3_d2),
    StableHlo.unary main_v50 main_v93 (broadcastInDim S2x1048576x1x3 ![0, 1, 3] bcast_S2x1048576x3_S2x1048576x1x3_0_1_3 : (⟨S2x1048576x3, .f32⟩ : BufTy).Contents (Elt F) → (⟨S2x1048576x1x3, .f32⟩ : BufTy).Contents (Elt F)),
    StableHlo.unary main_v71 main_v94 (broadcastInDim S2x1048576x1x3 ![0, 1, 3] bcast_S2x1048576x3_S2x1048576x1x3_0_1_3 : (⟨S2x1048576x3, .f32⟩ : BufTy).Contents (Elt F) → (⟨S2x1048576x1x3, .f32⟩ : BufTy).Contents (Elt F)),
    StableHlo.unary main_v92 main_v95 (broadcastInDim S2x1048576x1x3 ![0, 1, 3] bcast_S2x1048576x3_S2x1048576x1x3_0_1_3 : (⟨S2x1048576x3, .f32⟩ : BufTy).Contents (Elt F) → (⟨S2x1048576x1x3, .f32⟩ : BufTy).Contents (Elt F)),
    StableHlo.nary ![main_v93, main_v94, main_v95] main_v96 (fun u => concatenate S2x1048576x3x3 2 [⟨S2x1048576x1x3, u 0⟩, ⟨S2x1048576x1x3, u 1⟩, ⟨S2x1048576x1x3, u 2⟩] concatenates_S2x1048576x1x3_S2x1048576x1x3_S2x1048576x1x3_S2x1048576x3x3_d2),
    StableHlo.unary main_v12 main_v97 (broadcastInDim S2x1048576x1x3 ![0, 1, 3] bcast_S2x1048576x3_S2x1048576x1x3_0_1_3 : (⟨S2x1048576x3, .f32⟩ : BufTy).Contents (Elt F) → (⟨S2x1048576x1x3, .f32⟩ : BufTy).Contents (Elt F)),
    StableHlo.unary main_v97 main_v98 (broadcastInDim S2x1048576x3x3 ![0, 1, 2, 3] bcast_S2x1048576x1x3_S2x1048576x3x3_0_1_2_3 : (⟨S2x1048576x1x3, .f32⟩ : BufTy).Contents (Elt F) → (⟨S2x1048576x3x3, .f32⟩ : BufTy).Contents (Elt F)),
    StableHlo.binary main_v96 main_v98 main_v99 (mulf : (⟨S2x1048576x3x3, .f32⟩ : BufTy).Contents (Elt F) → (⟨S2x1048576x3x3, .f32⟩ : BufTy).Contents (Elt F) → (⟨S2x1048576x3x3, .f32⟩ : BufTy).Contents (Elt F)),
    StableHlo.binary main_v99 main_v99 main_v100 ((fun l r => Host.dotGeneral dot_S2x1048576x3x3_S2x1048576x3x3_S2x1048576x3x3_3_3_2_2_01_01 none l r) : (⟨S2x1048576x3x3, .f32⟩ : BufTy).Contents (Elt F) → (⟨S2x1048576x3x3, .f32⟩ : BufTy).Contents (Elt F) → (⟨S2x1048576x3x3, .f32⟩ : BufTy).Contents (Elt F)) ]

set_option maxRecDepth 16384 in
set_option maxHeartbeats 4000000 in
/-- The program is that straight line: the two halves and the called function unfolded, sequencing reassociated. -/
theorem main_eq (c : Dev nD) : main (F := F) c = seq ops := by
  simp only [main, main_part0, main_part1, fn_norm.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
theorem ops_sub : (ops : List (HloOp τ sig (Elt F))).Forall fun op => op.bufs ⊆ tcRefs τ sig :=
  ⟨nullary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., reshape_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., unary_bufs_sub .., unary_bufs_sub .., unary_bufs_sub .., nary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., unary_bufs_sub .., unary_bufs_sub .., unary_bufs_sub .., nary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., unary_bufs_sub .., unary_bufs_sub .., unary_bufs_sub .., nary_bufs_sub .., unary_bufs_sub .., unary_bufs_sub .., unary_bufs_sub .., nary_bufs_sub .., unary_bufs_sub .., unary_bufs_sub .., binary_bufs_sub .., binary_bufs_sub ..⟩

set_option maxRecDepth 16384 in
set_option maxHeartbeats 4000000 in
/-- From any memory with zero counters every weakly fair execution terminates, and each buffer ends at the fold of
    the operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.LibHostWalk.lean ====
/-
  Reading a buffer through a straight line of host operations: each operation's result at its own result buffer is
  its function of its operands' contents, and any other buffer keeps what it held. One pass rewrites a read at the end
  of the line into the composed term of the contents the line started from. A two-piece concatenation is restated
  with its two pieces as plain arguments, so that the pass also rewrites the reads inside the pieces.
-/
import Idealize.ShloMosaic.Lib.StableHlo.Run

set_option maxRecDepth 16384

noncomputable section

namespace Cert.HostWalk

open Idealize.ShloMosaic Idealize.ShloMosaic.StableHlo

/-- The concatenation of two pieces along an axis, the pieces as arguments. -/
def cat2 {α : Type} (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem concatenate_pair {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = cat2 t a s₁ s₂ x₁ x₂ h := rfl

/-- Reads a buffer through the fold of a line of host operations (and through whatever further rewriting rules are
    given for the boundaries between lines). -/
macro "walk_back" "[" ls:Lean.Parser.Tactic.simpLemma,* "]" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.nullary, TRef.unary, TRef.binary, TRef.ternary, TRef.quaternary, TRef.reshape, TRef.toBuf, TRef.ofBuf, TRef.of, cast_eq,
      concatenate_pair, $ls,*]))

end Cert.HostWalk

end
-- ==== Proof.RefReadOps.lean ====
/-
  Single host operations of the reference, read at one index given by coordinates: the three slices of the raw
  array, a scalar broadcast everywhere, and the squashed scale 0.5 + 14.5 · σ(x) as the composed term of the raw array.
-/
import proofs.«164973_j38001870635883_2_alg».proof.Proof.Gen.ReferenceIdeal
import proofs.«164973_j38001870635883_2_alg».proof.Proof.GaussSpec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Hand

open Cert.ReferenceIdeal Cert.ReferenceIdeal.Gen Idealize.ShloMosaic Idealize.ShloMosaic.ValueIdx
open scoped BigOperators

/-- A rank-3 array cut along its last axis from `o` reads, at (b, n, j), the source at (b, n, k) with k = o + j. -/
theorem slice3_axis2_apply {α : Type} {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- A scalar broadcast to any shape reads the scalar everywhere. -/
theorem bcast_scalar_apply {t : Shape} (h : S_.BroadcastsInDim t (![] : Fin 0 → Fin t.rank)) (w : BitVec 32) (j : t.Idx) :
    broadcastInDim t ![] h (constant (F := Ideal) S_ .f32 w) j = Ideal.ofBits .f32 w := rfl

/-- The host's quotient, square root, exponential and negation read element by element. -/
theorem hdivf_apply {s : Shape} {φ : FTy} (a b : FVec Ideal s φ) (i : s.Idx) : Host.divf (F := Ideal) a b i = Ideal.div (a i) (b i) := rfl
theorem hsqrt_apply {s : Shape} {φ : FTy} (a : FVec Ideal s φ) (i : s.Idx) : Host.sqrt (F := Ideal) a i = Ideal.sqrt (a i) := rfl
theorem hexp_apply {s : Shape} {φ : FTy} (a : FVec Ideal s φ) (i : s.Idx) : Host.exp (F := Ideal) a i = Ideal.exp (a i) := rfl
theorem hnegf_apply {s : Shape} {φ : FTy} (a : FVec Ideal s φ) (i : s.Idx) : Host.negf (F := Ideal) a i = -(a i) := rfl

/-- The squashed scales, as the composed term of the raw array, are the specification's. -/
theorem scale_read (x : FVec Ideal S2x1048576x82 .f32) :
    addf (broadcastInDim S2x1048576x3 ![] bcast_S_S2x1048576x3 (constant (F := Ideal) S_ .f32 0x3F000000#32))
      (mulf (broadcastInDim S2x1048576x3 ![] bcast_S_S2x1048576x3 (constant (F := Ideal) S_ .f32 0x41680000#32))
        (Host.divf (F := Ideal) (broadcastInDim S2x1048576x3 ![] bcast_S_S2x1048576x3 (constant (F := Ideal) S_ .f32 0x3F800000#32))
          (addf (broadcastInDim S2x1048576x3 ![] bcast_S_S2x1048576x3 (constant (F := Ideal) S_ .f32 0x3F800000#32))
            (Host.exp (F := Ideal) (Host.negf (F := Ideal)
              (extractStridedSlice S2x1048576x3 ![0, 0, 0] x slices_S2x1048576x82_S2x1048576x3_0_0_0))))))
      = Cert.Gauss.scaleArr x := by
  funext y
  obtain ⟨b, n, e, rfl⟩ : ∃ (b : Fin 2) (n : Fin 1048576) (e : Fin 3), y = ix3 b n e := ⟨y 0, y 1, y 2, eq_ix3 y⟩
  rw [Cert.Gauss.scaleArr_ix]
  have hs := slice3_axis2_apply 0 x slices_S2x1048576x82_S2x1048576x3_0_0_0 b n e ⟨e.val, by omega⟩ (Nat.zero_add _).symm
  show Ideal.ofBits .f32 0x3F000000#32 + Ideal.ofBits .f32 0x41680000#32 *
      Ideal.div (Ideal.ofBits .f32 0x3F800000#32) (Ideal.ofBits .f32 0x3F800000#32 +
        Ideal.exp (-(extractStridedSlice S2x1048576x3 ![0, 0, 0] x slices_S2x1048576x82_S2x1048576x3_0_0_0 (ix3 b n e)))) = _
  rw [hs]
  show Cert.Gauss.half + Cert.Gauss.span * Ideal.div Cert.Gauss.one (Cert.Gauss.one + Ideal.exp (-(x (ix3 b n ⟨e.val, by omega⟩)))) = _
  rw [Cert.Gauss.one_eq]
  rfl

/-- The raw quaternion's slice at (b, n, k) is channel 3 + k. -/
theorem sliceQ_apply (x : FVec Ideal S2x1048576x82 .f32) (b : Fin 2) (n : Fin 1048576) (k : Fin 4) :
    extractStridedSlice S2x1048576x4 ![0, 0, 3] x slices_S2x1048576x82_S2x1048576x4_0_0_3 (ix3 b n k)
      = x (ix3 b n ⟨3 + k.val, by omega⟩) :=
  slice3_axis2_apply 3 x slices_S2x1048576x82_S2x1048576x4_0_0_3 b n k ⟨3 + k.val, by omega⟩ rfl

/-- A per-point value given a trailing unit axis reads the value of its point. -/
theorem bcast_pt_unit_apply {α : Type} (r : S2x1048576.Idx → α) (b : Fin 2) (n : Fin 1048576) (z : Fin 1) :
    broadcastInDim S2x1048576x1 ![0, 1] bcast_S2x1048576_S2x1048576x1_0_1 r (ix3 b n z) = r (ix2 b n) :=
  broadcastInDim_apply _ _ _ _ _ (fun a => by
    match a with
    | ⟨0, _⟩ => rfl
    | ⟨1, _⟩ => rfl)

/-- A value on a trailing unit axis spread over four components reads, at each, the one value. -/
theorem bcast_unit_four_apply {α : Type} (r : S2x1048576x1.Idx → α) (b : Fin 2) (n : Fin 1048576) (k : Fin 4) :
    broadcastInDim S2x1048576x4 ![0, 1, 2] bcast_S2x1048576x1_S2x1048576x4_0_1_2 r (ix3 b n k) = r (ix3 b n (0 : Fin 1)) :=
  broadcastInDim_apply _ _ _ _ _ (fun a => by
    match a with
    | ⟨0, _⟩ => rfl
    | ⟨1, _⟩ => rfl
    | ⟨2, _⟩ => rfl)

/-- The sum over a point's four components, from an initial value. -/
theorem reduce4_apply (v : FVec Ideal S2x1048576x4 .f32) (init : S_.Idx → Ideal .f32) (b : Fin 2) (n : Fin 1048576) :
    Host.reduceAdd (F := Ideal) v init reducesTo_S2x1048576x4_S2x1048576_d2 h_S_ (ix2 b n)
      = init (Shape.Idx.first h_S_) + ∑ k : Fin 4, v (ix3 b n k) := by
  have h : S2x1048576x4.Reduces [2] S2x1048576 := by decide
  show Ideal.hostReduceAdd reducesTo_S2x1048576x4_S2x1048576_d2 v _ (ix2 b n) = _
  rw [Ideal.hostReduceAdd_single reducesTo_S2x1048576x4_S2x1048576_d2 h]
  refine congrArg (_ + ·) (Finset.sum_congr rfl fun k _ => ?_)
  refine congrArg v (funext fun a => Fin.ext ?_)
  match a with
  | ⟨0, _⟩ => rfl
  | ⟨1, _⟩ => rfl
  | ⟨2, _⟩ => rfl

/-- The normalised quaternion, as the composed term of the raw array, is the specification's. -/
theorem quat_read (x : FVec Ideal S2x1048576x82 .f32) :
    Host.divf (F := Ideal) (extractStridedSlice S2x1048576x4 ![0, 0, 3] x slices_S2x1048576x82_S2x1048576x4_0_0_3)
      (broadcastInDim S2x1048576x4 ![0, 1, 2] bcast_S2x1048576x1_S2x1048576x4_0_1_2
        (addf
          (Host.sqrt (F := Ideal) (broadcastInDim S2x1048576x1 ![0, 1] bcast_S2x1048576_S2x1048576x1_0_1
            (Host.reduceAdd (F := Ideal)
              (mulf (extractStridedSlice S2x1048576x4 ![0, 0, 3] x slices_S2x1048576x82_S2x1048576x4_0_0_3)
                (extractStridedSlice S2x1048576x4 ![0, 0, 3] x slices_S2x1048576x82_S2x1048576x4_0_0_3))
              (constant (F := Ideal) S_ .f32 0x00000000#32) reducesTo_S2x1048576x4_S2x1048576_d2 h_S_)))
          (broadcastInDim S2x1048576x1 ![] bcast_S_S2x1048576x1 (constant (F := Ideal) S_ .f32 0x322BCC77#32))))
      = Cert.Gauss.quatArr x := by
  funext y
  obtain ⟨b, n, k, rfl⟩ : ∃ (b : Fin 2) (n : Fin 1048576) (k : Fin 4), y = ix3 b n k := ⟨y 0, y 1, y 2, eq_ix3 y⟩
  rw [Cert.Gauss.quatArr_ix, hdivf_apply, bcast_unit_four_apply, sliceQ_apply, addf_apply, hsqrt_apply, bcast_pt_unit_apply,
    reduce4_apply, bcast_scalar_apply, constant_apply, Ideal.ofBits_zero_f32, zero_add]
  simp only [mulf_apply, sliceQ_apply]
  rfl

end Cert.ReferenceIdeal.Hand

end
-- ==== Proof.RefReadOps2.lean ====
/-
  More single operations read at one index: the harmonics' slice, regrouping and mask; one component of the unit
  quaternion taken out as an array over the points; three per-point values laid side by side as a row, three rows
  stacked as a matrix, the scales repeated down the rows; and the product of a matrix with its own transpose.
-/
import proofs.«164973_j38001870635883_2_alg».proof.Proof.RefReadOps

noncomputable section

namespace Cert.ReferenceIdeal.Hand

open Cert.ReferenceIdeal Cert.ReferenceIdeal.Gen Idealize.ShloMosaic Idealize.ShloMosaic.ValueIdx
open scoped BigOperators

/-! ## The harmonics -/

/-- The harmonics' slice at (b, n, j) is channel 7 + j. -/
theorem sliceH_apply (x : FVec Ideal S2x1048576x82 .f32) (b : Fin 2) (n : Fin 1048576) (j : Fin 75) (k : Fin 82)
    (hk : k.val = 7 + j.val) :
    extractStridedSlice S2x1048576x75 ![0, 0, 7] x slices_S2x1048576x82_S2x1048576x75_0_0_7 (ix3 b n j) = x (ix3 b n k) :=
  slice3_axis2_apply 7 x slices_S2x1048576x82_S2x1048576x75_0_0_7 b n j k hk

/-- The 75 harmonics regrouped as 3 × 25: (a, d) is harmonic 25 a + d. -/
theorem regroup_apply {α : Type} (v : S2x1048576x75.Idx → α) (b : Fin 2) (n : Fin 1048576) (a : Fin 3) (d : Fin 25) :
    shapeCast S2x1048576x3x25 v shapeCasts_S2x1048576x75_S2x1048576x3x25 (ix4 b n a d)
      = v (ix3 b n ⟨25 * a.val + d.val, by omega⟩) := by
  refine shapeCast_apply _ _ (ix4 b n a d) (ix3 b n ⟨25 * a.val + d.val, by omega⟩) ?_
  rw [Shape.rowMajor_val_three, Shape.rowMajor_val_four]
  show (b.val * 1048576 + n.val) * 75 + (25 * a.val + d.val) = ((b.val * 1048576 + n.val) * 3 + a.val) * 25 + d.val
  omega

/-- The mask table spread over every point and colour reads entry d. -/
theorem maskBcast_apply {α : Type} (t : S25.Idx → α) (b : Fin 2) (n : Fin 1048576) (a : Fin 3) (d : Fin 25) :
    broadcastInDim S2x1048576x3x25 ![0, 1, 2, 3] bcast_S1x1x1x25_S2x1048576x3x25_0_1_2_3
      (broadcastInDim S1x1x1x25 ![3] bcast_S25_S1x1x1x25_3 t) (ix4 b n a d) = t (ix1 d) := by
  refine (broadcastInDim_apply _ _ _ (ix4 b n a d) (ix4 (0 : Fin 1) (0 : Fin 1) (0 : Fin 1) d) (fun ax => ?_)).trans
    (broadcastInDim_apply _ _ _ _ (ix1 d) (fun ax => ?_))
  · match ax with
    | ⟨0, _⟩ => rfl
    | ⟨1, _⟩ => rfl
    | ⟨2, _⟩ => rfl
    | ⟨3, _⟩ => rfl
  · match ax with
    | ⟨0, _⟩ => rfl

/-- The printed table of mask words is the specification's. -/
theorem lit0_eq : ∀ d : Fin 25, lit0 d = Cert.Gauss.maskWord d := by decide

/-- The masked harmonics, as the composed term of the raw array, are the specification's. -/
theorem sh_read (x : FVec Ideal S2x1048576x82 .f32) :
    mulf
      (shapeCast S2x1048576x3x25 (extractStridedSlice S2x1048576x75 ![0, 0, 7] x slices_S2x1048576x82_S2x1048576x75_0_0_7)
        shapeCasts_S2x1048576x75_S2x1048576x3x25)
      (broadcastInDim S2x1048576x3x25 ![0, 1, 2, 3] bcast_S1x1x1x25_S2x1048576x3x25_0_1_2_3
        (broadcastInDim S1x1x1x25 ![3] bcast_S25_S1x1x1x25_3
          (fun i => FloatOps.ofBits (F := Ideal) .f32 (lit0 (S25.rowMajor i)))))
      = Cert.Gauss.shArr x := by
  funext y
  obtain ⟨b, n, a, d, rfl⟩ : ∃ (b : Fin 2) (n : Fin 1048576) (a : Fin 3) (d : Fin 25), y = ix4 b n a d :=
    ⟨y 0, y 1, y 2, y 3, eq_ix4 y⟩
  rw [Cert.Gauss.shArr_ix, mulf_apply, regroup_apply, maskBcast_apply,
    sliceH_apply x b n _ ⟨7 + 25 * a.val + d.val, by omega⟩ (by show 7 + 25 * a.val + d.val = 7 + (25 * a.val + d.val); omega)]
  have hd : S25.rowMajor (ix1 d) = d := Fin.ext (Shape.rowMajor_val_one _)
  show x _ * Ideal.ofBits .f32 (lit0 (S25.rowMajor (ix1 d))) = _
  rw [hd, lit0_eq]
  rfl

/-! ## The unit quaternion's components -/

theorem comp0_apply {α : Type} (q : S2x1048576x4.Idx → α) (b : Fin 2) (n : Fin 1048576) :
    shapeCast S2x1048576 (extractStridedSlice S2x1048576x1 ![0, 0, 0] q slices_S2x1048576x4_S2x1048576x1_0_0_0)
        shapeCasts_S2x1048576x1_S2x1048576 (ix2 b n) = q (ix3 b n (0 : Fin 4)) := by
  refine (shapeCast_apply _ _ (ix2 b n) (ix3 b n (0 : Fin 1)) ?_).trans
    (slice3_axis2_apply 0 q slices_S2x1048576x4_S2x1048576x1_0_0_0 b n (0 : Fin 1) (0 : Fin 4) rfl)
  rw [Shape.rowMajor_val_three, Shape.rowMajor_val_two]
  show (b.val * 1048576 + n.val) * 1 + 0 = b.val * 1048576 + n.val
  omega

theorem comp1_apply {α : Type} (q : S2x1048576x4.Idx → α) (b : Fin 2) (n : Fin 1048576) :
    shapeCast S2x1048576 (extractStridedSlice S2x1048576x1 ![0, 0, 1] q slices_S2x1048576x4_S2x1048576x1_0_0_1)
        shapeCasts_S2x1048576x1_S2x1048576 (ix2 b n) = q (ix3 b n (1 : Fin 4)) := by
  refine (shapeCast_apply _ _ (ix2 b n) (ix3 b n (0 : Fin 1)) ?_).trans
    (slice3_axis2_apply 1 q slices_S2x1048576x4_S2x1048576x1_0_0_1 b n (0 : Fin 1) (1 : Fin 4) rfl)
  rw [Shape.rowMajor_val_three, Shape.rowMajor_val_two]
  show (b.val * 1048576 + n.val) * 1 + 0 = b.val * 1048576 + n.val
  omega

theorem comp2_apply {α : Type} (q : S2x1048576x4.Idx → α) (b : Fin 2) (n : Fin 1048576) :
    shapeCast S2x1048576 (extractStridedSlice S2x1048576x1 ![0, 0, 2] q slices_S2x1048576x4_S2x1048576x1_0_0_2)
        shapeCasts_S2x1048576x1_S2x1048576 (ix2 b n) = q (ix3 b n (2 : Fin 4)) := by
  refine (shapeCast_apply _ _ (ix2 b n) (ix3 b n (0 : Fin 1)) ?_).trans
    (slice3_axis2_apply 2 q slices_S2x1048576x4_S2x1048576x1_0_0_2 b n (0 : Fin 1) (2 : Fin 4) rfl)
  rw [Shape.rowMajor_val_three, Shape.rowMajor_val_two]
  show (b.val * 1048576 + n.val) * 1 + 0 = b.val * 1048576 + n.val
  omega

theorem comp3_apply {α : Type} (q : S2x1048576x4.Idx → α) (b : Fin 2) (n : Fin 1048576) :
    shapeCast S2x1048576 (extractStridedSlice S2x1048576x1 ![0, 0, 3] q slices_S2x1048576x4_S2x1048576x1_0_0_3)
        shapeCasts_S2x1048576x1_S2x1048576 (ix2 b n) = q (ix3 b n (3 : Fin 4)) := by
  refine (shapeCast_apply _ _ (ix2 b n) (ix3 b n (0 : Fin 1)) ?_).trans
    (slice3_axis2_apply 3 q slices_S2x1048576x4_S2x1048576x1_0_0_3 b n (0 : Fin 1) (3 : Fin 4) rfl)
  rw [Shape.rowMajor_val_three, Shape.rowMajor_val_two]
  show (b.val * 1048576 + n.val) * 1 + 0 = b.val * 1048576 + n.val
  omega

end Cert.ReferenceIdeal.Hand

end
-- ==== Proof.RefReadA.lean ====
/-
  What the run leaves in the scale, quaternion and harmonics buffers and in the three arguments: each read through the
  line of operations back to the raw array, then identified with the specification by the single-operation readings.
-/
import proofs.«164973_j38001870635883_2_alg».proof.Proof.RefRun
import proofs.«164973_j38001870635883_2_alg».proof.Proof.LibHostWalk
import proofs.«164973_j38001870635883_2_alg».proof.Proof.RefReadOps2

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.HostWalk

set_option maxRecDepth 16384 in
set_option maxHeartbeats 4000000 in
/-- The scales. -/
theorem v12_eq (V : Valuation τ sig (Elt Ideal)) :
    after (ops (F := Ideal)) V (main_v12 : DevRef τ sig) = Cert.Gauss.scaleArr (V (main_arg2 : DevRef τ sig)) := by
  walk_back []
  exact scale_read _

set_option maxRecDepth 16384 in
set_option maxHeartbeats 4000000 in
/-- The unit quaternions. -/
theorem v17_eq (V : Valuation τ sig (Elt Ideal)) :
    after (ops (F := Ideal)) V (main_v17 : DevRef τ sig) = Cert.Gauss.quatArr (V (main_arg2 : DevRef τ sig)) := by
  walk_back []
  exact quat_read _

set_option maxRecDepth 16384 in
set_option maxHeartbeats 4000000 in
/-- The masked harmonics. -/
theorem v21_eq (V : Valuation τ sig (Elt Ideal)) :
    after (ops (F := Ideal)) V (main_v21 : DevRef τ sig) = Cert.Gauss.shArr (V (main_arg2 : DevRef τ sig)) := by
  walk_back []
  exact sh_read _

set_option maxRecDepth 16384 in
set_option maxHeartbeats 4000000 in
/-- No operation writes an argument. -/
theorem arg0_eq (V : Valuation τ sig (Elt Ideal)) :
    after (ops (F := Ideal)) V (main_arg0 : DevRef τ sig) = V (main_arg0 : DevRef τ sig) := by
  walk_back []

set_option maxRecDepth 16384 in
set_option maxHeartbeats 4000000 in
theorem arg1_eq (V : Valuation τ sig (Elt Ideal)) :
    after (ops (F := Ideal)) V (main_arg1 : DevRef τ sig) = V (main_arg1 : DevRef τ sig) := by
  walk_back []

set_option maxRecDepth 16384 in
set_option maxHeartbeats 4000000 in
theorem arg2_eq (V : Valuation τ sig (Elt Ideal)) :
    after (ops (F := Ideal)) V (main_arg2 : DevRef τ sig) = V (main_arg2 : DevRef τ sig) := by
  walk_back []

end Cert.ReferenceIdeal.Hand

end
-- ==== Proof.RefWalk3.lean ====
/-
  Reading a buffer through a line of host operations when some of them join three operands: the joined operation's
  result is restated with each operand's contents at its own reference, and a three-piece concatenation with its
  pieces as plain arguments, so that one pass also rewrites the reads inside the three pieces.
-/
import Idealize.ShloMosaic.Lib.StableHlo.Run

set_option maxRecDepth 16384

noncomputable section

namespace Cert.Walk3

open Idealize.ShloMosaic Idealize.ShloMosaic.StableHlo

/-- Three values, one per position, as a function of the position. -/
def tri {T : Fin 3 → Type} (a : T 0) (b : T 1) (c : T 2) : (k : Fin 3) → T k
  | ⟨0, _⟩ => a
  | ⟨1, _⟩ => b
  | ⟨2, _⟩ => c

theorem tri_zero {T : Fin 3 → Type} (a : T 0) (b : T 1) (c : T 2) : tri a b c 0 = a := rfl
theorem tri_one {T : Fin 3 → Type} (a : T 0) (b : T 1) (c : T 2) : tri a b c 1 = b := rfl
theorem tri_two {T : Fin 3 → Type} (a : T 0) (b : T 1) (c : T 2) : tri a b c 2 = c := rfl

/-- The concatenation of three pieces along an axis, the pieces as arguments. -/
def cat3 {α : Type} (t : Shape) (a : Fin t.rank) (s₁ s₂ s₃ : Shape) (x₁ : s₁.Idx → α) (x₂ : s₂.Idx → α) (x₃ : s₃.Idx → α)
    (h : Shape.Concatenates [s₁, s₂, s₃] t a) : t.Idx → α :=
  concatenate t a [⟨s₁, x₁⟩, ⟨s₂, x₂⟩, ⟨s₃, x₃⟩] h

theorem concatenate_triple {α : Type} (t : Shape) (a : Fin t.rank) (s₁ s₂ s₃ : Shape) (x₁ : s₁.Idx → α) (x₂ : s₂.Idx → α)
    (x₃ : s₃.Idx → α) (h : Shape.Concatenates [s₁, s₂, s₃] t a) :
    concatenate t a [⟨s₁, x₁⟩, ⟨s₂, x₂⟩, ⟨s₃, x₃⟩] h = cat3 t a s₁ s₂ s₃ x₁ x₂ x₃ h := rfl

variable {τ : Topo} {sig : RefSig} {Val : EltTy → Type} {x a b y : Ref sig .tc}

/-- An operation of three operands at a literal family of references: its result with each operand's contents at its
    own reference. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (tri (T := fun k => ((![x, a, b] : Fin 3 → Ref sig .tc) k).ty.Contents Val)
            (F (Proc.devRef .tc x)) (F (Proc.devRef .tc a)) (F (Proc.devRef .tc b))) := by
  rw [nary_result]; congr 1; funext k
  match k with
  | ⟨0, _⟩ => rfl
  | ⟨1, _⟩ => rfl
  | ⟨2, _⟩ => rfl

/-- Reads a buffer through the fold of a line of host operations, three-operand joins included. -/
macro "walk3" "[" ls:Lean.Parser.Tactic.simpLemma,* "]" : tactic =>
  `(tactic| (simp (disch := decide) only [after_cons, after_nil,
      nullary_result', unary_result', binary_result', reshape_result', nary3_result',
      nullary_result_ne', unary_result_ne', binary_result_ne', reshape_result_ne', nary_result_ne',
      concatenate_triple, tri_zero, tri_one, tri_two,
      TRef.nullary, TRef.unary, TRef.binary, TRef.reshape, TRef.toBuf, TRef.ofBuf, TRef.of, cast_eq, $ls,*]))

end Cert.Walk3

end
-- ==== Proof.RefReadMat.lean ====
/-
  Three per-point values laid side by side as a row, three rows stacked as a matrix, the scales repeated down the
  rows, and the product of a matrix with its own transpose, each read at one index given by coordinates.
-/
import proofs.«164973_j38001870635883_2_alg».proof.Proof.RefReadOps
import proofs.«164973_j38001870635883_2_alg».proof.Proof.RefWalk3

noncomputable section

namespace Cert.ReferenceIdeal.Hand

open Cert.ReferenceIdeal Cert.ReferenceIdeal.Gen Idealize.ShloMosaic Idealize.ShloMosaic.ValueIdx
open scoped BigOperators
open Cert.Walk3

/-- Three per-point values, each given a trailing unit axis and laid side by side: entry e of the row at (b, n). -/
theorem row_apply {α : Type} (r0 r1 r2 : S2x1048576.Idx → α) (b : Fin 2) (n : Fin 1048576) (e : Fin 3) :
    concatenate S2x1048576x3 2
      [⟨S2x1048576x1, broadcastInDim S2x1048576x1 ![0, 1] bcast_S2x1048576_S2x1048576x1_0_1 r0⟩,
       ⟨S2x1048576x1, broadcastInDim S2x1048576x1 ![0, 1] bcast_S2x1048576_S2x1048576x1_0_1 r1⟩,
       ⟨S2x1048576x1, broadcastInDim S2x1048576x1 ![0, 1] bcast_S2x1048576_S2x1048576x1_0_1 r2⟩]
      concatenates_S2x1048576x1_S2x1048576x1_S2x1048576x1_S2x1048576x3_d2 (ix3 b n e)
      = (![r0 (ix2 b n), r1 (ix2 b n), r2 (ix2 b n)] : Fin 3 → α) e := by
  match e with
  | ⟨0, _⟩ =>
    refine Eq.trans (concatenate_apply_piece (t := S2x1048576x3) (2 : Fin 3) _ _ _ 0 ?_ S2x1048576x1 _ ?_ rfl 0 ?_
      (ix3 b n (0 : Fin 1)) (fun b' hb => ?_) ?_) (bcast_pt_unit_apply r0 b n 0)
    · show (0 : Nat) < 3; decide
    · rfl
    · rfl
    · match b', hb with
      | ⟨0, _⟩, _ => rfl
      | ⟨1, _⟩, _ => rfl
      | ⟨2, _⟩, hb => exact absurd rfl hb
    · rfl
  | ⟨1, _⟩ =>
    refine Eq.trans (concatenate_apply_piece (t := S2x1048576x3) (2 : Fin 3) _ _ _ 1 ?_ S2x1048576x1 _ ?_ rfl 1 ?_
      (ix3 b n (0 : Fin 1)) (fun b' hb => ?_) ?_) (bcast_pt_unit_apply r1 b n 0)
    · show (1 : Nat) < 3; decide
    · rfl
    · rfl
    · match b', hb with
      | ⟨0, _⟩, _ => rfl
      | ⟨1, _⟩, _ => rfl
      | ⟨2, _⟩, hb => exact absurd rfl hb
    · rfl
  | ⟨2, _⟩ =>
    refine Eq.trans (concatenate_apply_piece (t := S2x1048576x3) (2 : Fin 3) _ _ _ 2 ?_ S2x1048576x1 _ ?_ rfl 2 ?_
      (ix3 b n (0 : Fin 1)) (fun b' hb => ?_) ?_) (bcast_pt_unit_apply r2 b n 0)
    · show (2 : Nat) < 3; decide
    · rfl
    · rfl
    · match b', hb with
      | ⟨0, _⟩, _ => rfl
      | ⟨1, _⟩, _ => rfl
      | ⟨2, _⟩, hb => exact absurd rfl hb
    · rfl

/-- The same row, the concatenation written with its pieces as arguments. -/
theorem row_cat_apply {α : Type} (r0 r1 r2 : S2x1048576.Idx → α) (b : Fin 2) (n : Fin 1048576) (e : Fin 3) :
    cat3 S2x1048576x3 2 S2x1048576x1 S2x1048576x1 S2x1048576x1
      (broadcastInDim S2x1048576x1 ![0, 1] bcast_S2x1048576_S2x1048576x1_0_1 r0)
      (broadcastInDim S2x1048576x1 ![0, 1] bcast_S2x1048576_S2x1048576x1_0_1 r1)
      (broadcastInDim S2x1048576x1 ![0, 1] bcast_S2x1048576_S2x1048576x1_0_1 r2)
      concatenates_S2x1048576x1_S2x1048576x1_S2x1048576x1_S2x1048576x3_d2 (ix3 b n e)
      = (![r0 (ix2 b n), r1 (ix2 b n), r2 (ix2 b n)] : Fin 3 → α) e := row_apply r0 r1 r2 b n e

/-- A row given a unit axis before its entries reads the row. -/
theorem bcast_row_unit_apply {α : Type} (R : S2x1048576x3.Idx → α) (b : Fin 2) (n : Fin 1048576) (z : Fin 1) (e : Fin 3) :
    broadcastInDim S2x1048576x1x3 ![0, 1, 3] bcast_S2x1048576x3_S2x1048576x1x3_0_1_3 R (ix4 b n z e) = R (ix3 b n e) :=
  broadcastInDim_apply _ _ _ _ _ (fun a => by
    match a with
    | ⟨0, _⟩ => rfl
    | ⟨1, _⟩ => rfl
    | ⟨2, _⟩ => rfl)

/-- Three rows stacked: row a of the matrix at (b, n). -/
theorem stack_apply {α : Type} (R0 R1 R2 : S2x1048576x3.Idx → α) (b : Fin 2) (n : Fin 1048576) (a e : Fin 3) :
    concatenate S2x1048576x3x3 2
      [⟨S2x1048576x1x3, broadcastInDim S2x1048576x1x3 ![0, 1, 3] bcast_S2x1048576x3_S2x1048576x1x3_0_1_3 R0⟩,
       ⟨S2x1048576x1x3, broadcastInDim S2x1048576x1x3 ![0, 1, 3] bcast_S2x1048576x3_S2x1048576x1x3_0_1_3 R1⟩,
       ⟨S2x1048576x1x3, broadcastInDim S2x1048576x1x3 ![0, 1, 3] bcast_S2x1048576x3_S2x1048576x1x3_0_1_3 R2⟩]
      concatenates_S2x1048576x1x3_S2x1048576x1x3_S2x1048576x1x3_S2x1048576x3x3_d2 (ix4 b n a e)
      = (![R0 (ix3 b n e), R1 (ix3 b n e), R2 (ix3 b n e)] : Fin 3 → α) a := by
  match a with
  | ⟨0, _⟩ =>
    refine Eq.trans (concatenate_apply_piece (t := S2x1048576x3x3) (2 : Fin 4) _ _ _ 0 ?_ S2x1048576x1x3 _ ?_ rfl 0 ?_
      (ix4 b n (0 : Fin 1) e) (fun b' hb => ?_) ?_) (bcast_row_unit_apply R0 b n 0 e)
    · show (0 : Nat) < 3; decide
    · rfl
    · rfl
    · match b', hb with
      | ⟨0, _⟩, _ => rfl
      | ⟨1, _⟩, _ => rfl
      | ⟨2, _⟩, hb => exact absurd rfl hb
      | ⟨3, _⟩, _ => rfl
    · rfl
  | ⟨1, _⟩ =>
    refine Eq.trans (concatenate_apply_piece (t := S2x1048576x3x3) (2 : Fin 4) _ _ _ 1 ?_ S2x1048576x1x3 _ ?_ rfl 1 ?_
      (ix4 b n (0 : Fin 1) e) (fun b' hb => ?_) ?_) (bcast_row_unit_apply R1 b n 0 e)
    · show (1 : Nat) < 3; decide
    · rfl
    · rfl
    · match b', hb with
      | ⟨0, _⟩, _ => rfl
      | ⟨1, _⟩, _ => rfl
      | ⟨2, _⟩, hb => exact absurd rfl hb
      | ⟨3, _⟩, _ => rfl
    · rfl
  | ⟨2, _⟩ =>
    refine Eq.trans (concatenate_apply_piece (t := S2x1048576x3x3) (2 : Fin 4) _ _ _ 2 ?_ S2x1048576x1x3 _ ?_ rfl 2 ?_
      (ix4 b n (0 : Fin 1) e) (fun b' hb => ?_) ?_) (bcast_row_unit_apply R2 b n 0 e)
    · show (2 : Nat) < 3; decide
    · rfl
    · rfl
    · match b', hb with
      | ⟨0, _⟩, _ => rfl
      | ⟨1, _⟩, _ => rfl
      | ⟨2, _⟩, hb => exact absurd rfl hb
      | ⟨3, _⟩, _ => rfl
    · rfl

/-- The same stack, the concatenation written with its pieces as arguments. -/
theorem stack_cat_apply {α : Type} (R0 R1 R2 : S2x1048576x3.Idx → α) (b : Fin 2) (n : Fin 1048576) (a e : Fin 3) :
    cat3 S2x1048576x3x3 2 S2x1048576x1x3 S2x1048576x1x3 S2x1048576x1x3
      (broadcastInDim S2x1048576x1x3 ![0, 1, 3] bcast_S2x1048576x3_S2x1048576x1x3_0_1_3 R0)
      (broadcastInDim S2x1048576x1x3 ![0, 1, 3] bcast_S2x1048576x3_S2x1048576x1x3_0_1_3 R1)
      (broadcastInDim S2x1048576x1x3 ![0, 1, 3] bcast_S2x1048576x3_S2x1048576x1x3_0_1_3 R2)
      concatenates_S2x1048576x1x3_S2x1048576x1x3_S2x1048576x1x3_S2x1048576x3x3_d2 (ix4 b n a e)
      = (![R0 (ix3 b n e), R1 (ix3 b n e), R2 (ix3 b n e)] : Fin 3 → α) a := stack_apply R0 R1 R2 b n a e

/-- The scales repeated down the three rows read the scale of the column. -/
theorem scaleBcast_apply {α : Type} (s : S2x1048576x3.Idx → α) (b : Fin 2) (n : Fin 1048576) (a e : Fin 3) :
    broadcastInDim S2x1048576x3x3 ![0, 1, 2, 3] bcast_S2x1048576x1x3_S2x1048576x3x3_0_1_2_3
      (broadcastInDim S2x1048576x1x3 ![0, 1, 3] bcast_S2x1048576x3_S2x1048576x1x3_0_1_3 s) (ix4 b n a e) = s (ix3 b n e) := by
  refine (broadcastInDim_apply _ _ _ (ix4 b n a e) (ix4 b n (0 : Fin 1) e) (fun ax => ?_)).trans (bcast_row_unit_apply s b n 0 e)
  match ax with
  | ⟨0, _⟩ => rfl
  | ⟨1, _⟩ => rfl
  | ⟨2, _⟩ => rfl
  | ⟨3, _⟩ => rfl

/-- The product of a stack of 3 × 3 matrices with their transposes: entry (a, c) is the sum over e of (a, e) · (c, e). -/
theorem dot_apply (M : FVec Ideal S2x1048576x3x3 .f32) (b : Fin 2) (n : Fin 1048576) (a c : Fin 3) :
    Host.dotGeneral (F := Ideal) dot_S2x1048576x3x3_S2x1048576x3x3_S2x1048576x3x3_3_3_2_2_01_01 none M M (ix4 b n a c)
      = ∑ e : Fin 3, M (ix4 b n a e) * M (ix4 b n c e) := by
  show FloatOps.dotGeneral _ none _ M M (ix4 b n a c) = _
  rw [Ideal.dotGeneral_apply,
    ← Equiv.sum_comp (contrEquiv1 dot_S2x1048576x3x3_S2x1048576x3x3_S2x1048576x3x3_3_3_2_2_01_01 3 rfl rfl).symm]
  refine Finset.sum_congr rfl fun e _ => ?_
  have c3 := contrEquiv1_symm_val dot_S2x1048576x3x3_S2x1048576x3x3_S2x1048576x3x3_3_3_2_2_01_01 3 rfl rfl e
  have l3 : dot_S2x1048576x3x3_S2x1048576x3x3_S2x1048576x3x3_3_3_2_2_01_01.lhsIdx (ix4 b n a c)
      ((contrEquiv1 _ 3 rfl rfl).symm e) = ix4 b n a e := by
    funext ax; apply Fin.ext
    match ax with
    | ⟨0, _⟩ => simp [DotDims.lhsIdx, dot_S2x1048576x3x3_S2x1048576x3x3_S2x1048576x3x3_3_3_2_2_01_01]; rfl
    | ⟨1, _⟩ => simp [DotDims.lhsIdx, dot_S2x1048576x3x3_S2x1048576x3x3_S2x1048576x3x3_3_3_2_2_01_01]; rfl
    | ⟨2, _⟩ => simp [DotDims.lhsIdx, dot_S2x1048576x3x3_S2x1048576x3x3_S2x1048576x3x3_3_3_2_2_01_01]; rfl
    | ⟨3, _⟩ => simp [DotDims.lhsIdx, dot_S2x1048576x3x3_S2x1048576x3x3_S2x1048576x3x3_3_3_2_2_01_01]; exact c3
  have r3 : dot_S2x1048576x3x3_S2x1048576x3x3_S2x1048576x3x3_3_3_2_2_01_01.rhsIdx (ix4 b n a c)
      ((contrEquiv1 _ 3 rfl rfl).symm e) = ix4 b n c e := by
    funext ax; apply Fin.ext
    match ax with
    | ⟨0, _⟩ => simp [DotDims.rhsIdx, dot_S2x1048576x3x3_S2x1048576x3x3_S2x1048576x3x3_3_3_2_2_01_01]; rfl
    | ⟨1, _⟩ => simp [DotDims.rhsIdx, dot_S2x1048576x3x3_S2x1048576x3x3_S2x1048576x3x3_3_3_2_2_01_01]; rfl
    | ⟨2, _⟩ => simp [DotDims.rhsIdx, dot_S2x1048576x3x3_S2x1048576x3x3_S2x1048576x3x3_3_3_2_2_01_01]; rfl
    | ⟨3, _⟩ => simp [DotDims.rhsIdx, dot_S2x1048576x3x3_S2x1048576x3x3_S2x1048576x3x3_3_3_2_2_01_01]; exact c3
  rw [l3, r3]

end Cert.ReferenceIdeal.Hand

end
-- ==== Proof.RefReadCov.lean ====
/-
  What the run leaves in the covariance buffer. The line of operations is read back to the raw array, each
  three-operand join restated with its operands' contents as plain arguments so that the reading goes on inside them;
  the unit quaternion and the scales inside the composed term are the specification's by the earlier readings; then
  one entry (b, n, a, c) is read through the product, the scaling, the stacked rows and the quaternion's components,
  and what is left is the specification's sum over the three columns, entry by entry.
-/
import proofs.«164973_j38001870635883_2_alg».proof.Proof.RefRun
import proofs.«164973_j38001870635883_2_alg».proof.Proof.RefWalk3
import proofs.«164973_j38001870635883_2_alg».proof.Proof.RefReadOps2
import proofs.«164973_j38001870635883_2_alg».proof.Proof.RefReadMat

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx
open Cert.Walk3
open scoped BigOperators

section Joins
variable {F : FTy → Type} [FloatOps F]

/-! ## The four three-operand joins, each with its operands' contents as plain arguments -/

theorem v50_result (hxs hy) (G : Valuation τ sig (Elt F)) :
    (nary (τ := τ) ![main_v47, main_v48, main_v49] main_v50
        (fun u => concatenate S2x1048576x3 2 [⟨S2x1048576x1, u 0⟩, ⟨S2x1048576x1, u 1⟩, ⟨S2x1048576x1, u 2⟩] concatenates_S2x1048576x1_S2x1048576x1_S2x1048576x1_S2x1048576x3_d2) hxs hy).result G
        (no_index (Proc.devRef .tc main_v50))
      = cat3 S2x1048576x3 2 S2x1048576x1 S2x1048576x1 S2x1048576x1 (G (Proc.devRef .tc main_v47)) (G (Proc.devRef .tc main_v48)) (G (Proc.devRef .tc main_v49))
          concatenates_S2x1048576x1_S2x1048576x1_S2x1048576x1_S2x1048576x3_d2 :=
  nary_result _ _ _ _ _ _

theorem v71_result (hxs hy) (G : Valuation τ sig (Elt F)) :
    (nary (τ := τ) ![main_v68, main_v69, main_v70] main_v71
        (fun u => concatenate S2x1048576x3 2 [⟨S2x1048576x1, u 0⟩, ⟨S2x1048576x1, u 1⟩, ⟨S2x1048576x1, u 2⟩] concatenates_S2x1048576x1_S2x1048576x1_S2x1048576x1_S2x1048576x3_d2) hxs hy).result G
        (no_index (Proc.devRef .tc main_v71))
      = cat3 S2x1048576x3 2 S2x1048576x1 S2x1048576x1 S2x1048576x1 (G (Proc.devRef .tc main_v68)) (G (Proc.devRef .tc main_v69)) (G (Proc.devRef .tc main_v70))
          concatenates_S2x1048576x1_S2x1048576x1_S2x1048576x1_S2x1048576x3_d2 :=
  nary_result _ _ _ _ _ _

theorem v92_result (hxs hy) (G : Valuation τ sig (Elt F)) :
    (nary (τ := τ) ![main_v89, main_v90, main_v91] main_v92
        (fun u => concatenate S2x1048576x3 2 [⟨S2x1048576x1, u 0⟩, ⟨S2x1048576x1, u 1⟩, ⟨S2x1048576x1, u 2⟩] concatenates_S2x1048576x1_S2x1048576x1_S2x1048576x1_S2x1048576x3_d2) hxs hy).result G
        (no_index (Proc.devRef .tc main_v92))
      = cat3 S2x1048576x3 2 S2x1048576x1 S2x1048576x1 S2x1048576x1 (G (Proc.devRef .tc main_v89)) (G (Proc.devRef .tc main_v90)) (G (Proc.devRef .tc main_v91))
          concatenates_S2x1048576x1_S2x1048576x1_S2x1048576x1_S2x1048576x3_d2 :=
  nary_result _ _ _ _ _ _

theorem v96_result (hxs hy) (G : Valuation τ sig (Elt F)) :
    (nary (τ := τ) ![main_v93, main_v94, main_v95] main_v96
        (fun u => concatenate S2x1048576x3x3 2 [⟨S2x1048576x1x3, u 0⟩, ⟨S2x1048576x1x3, u 1⟩, ⟨S2x1048576x1x3, u 2⟩] concatenates_S2x1048576x1x3_S2x1048576x1x3_S2x1048576x1x3_S2x1048576x3x3_d2) hxs hy).result G
        (no_index (Proc.devRef .tc main_v96))
      = cat3 S2x1048576x3x3 2 S2x1048576x1x3 S2x1048576x1x3 S2x1048576x1x3 (G (Proc.devRef .tc main_v93)) (G (Proc.devRef .tc main_v94)) (G (Proc.devRef .tc main_v95))
          concatenates_S2x1048576x1x3_S2x1048576x1x3_S2x1048576x1x3_S2x1048576x3x3_d2 :=
  nary_result _ _ _ _ _ _

end Joins

/-- Reads a buffer through the fold of the line of host operations, the four joins included. -/
local macro "walkc" : tactic =>
  `(tactic| (simp (disch := decide) only [after_cons, after_nil,
      nullary_result', unary_result', binary_result', reshape_result', v50_result, v71_result, v92_result, v96_result,
      nullary_result_ne', unary_result_ne', binary_result_ne', reshape_result_ne', nary_result_ne',
      TRef.nullary, TRef.unary, TRef.binary, TRef.reshape, TRef.toBuf, TRef.ofBuf, TRef.of, cast_eq]))

/-! ## Entry by entry -/

/-- An entry picked out of three, when each of the three is the corresponding value of a function. -/
theorem pick3 {α : Type} (x0 x1 x2 : α) (y : Fin 3 → α) (h0 : x0 = y 0) (h1 : x1 = y 1) (h2 : x2 = y 2) (a : Fin 3) :
    (![x0, x1, x2] : Fin 3 → α) a = y a := by
  match a with
  | ⟨0, _⟩ => exact h0
  | ⟨1, _⟩ => exact h1
  | ⟨2, _⟩ => exact h2

/-- A diagonal entry of the rotation: 1 − 2 (p² + q²). -/
theorem entD (cp cq : FVec Ideal S2x1048576 .f32) (i : S2x1048576.Idx) (P Q : EReal) (hp : cp i = P) (hq : cq i = Q) :
    subf (broadcastInDim S2x1048576 ![] bcast_S_S2x1048576 (constant (F := Ideal) S_ .f32 0x3F800000#32)) (mulf (broadcastInDim S2x1048576 ![] bcast_S_S2x1048576 (constant (F := Ideal) S_ .f32 0x40000000#32)) (addf (mulf cp cp) (mulf cq cq))) i
      = Cert.Gauss.one - Cert.Gauss.two * (P * P + Q * Q) := by
  subst hp hq; rfl

/-- An off-diagonal entry with a difference: 2 (p q − r s). -/
theorem entM (cp cq cr cs : FVec Ideal S2x1048576 .f32) (i : S2x1048576.Idx) (P Q R S : EReal)
    (hp : cp i = P) (hq : cq i = Q) (hr : cr i = R) (hs : cs i = S) :
    mulf (broadcastInDim S2x1048576 ![] bcast_S_S2x1048576 (constant (F := Ideal) S_ .f32 0x40000000#32)) (subf (mulf cp cq) (mulf cr cs)) i = Cert.Gauss.two * (P * Q - R * S) := by
  subst hp hq hr hs; rfl

/-- An off-diagonal entry with a sum: 2 (p q + r s). -/
theorem entP (cp cq cr cs : FVec Ideal S2x1048576 .f32) (i : S2x1048576.Idx) (P Q R S : EReal)
    (hp : cp i = P) (hq : cq i = Q) (hr : cr i = R) (hs : cs i = S) :
    mulf (broadcastInDim S2x1048576 ![] bcast_S_S2x1048576 (constant (F := Ideal) S_ .f32 0x40000000#32)) (addf (mulf cp cq) (mulf cr cs)) i = Cert.Gauss.two * (P * Q + R * S) := by
  subst hp hq hr hs; rfl

/-- The product of the scaled rotation with its transpose, once every entry of the scaled rotation is known. -/
theorem cov_of_rows (M : FVec Ideal S2x1048576x3x3 .f32) (u : Fin 4 → EReal) (s : Fin 3 → EReal) (b : Fin 2) (n : Fin 1048576)
    (hM : ∀ a e : Fin 3, M (ix4 b n a e) = Cert.Gauss.scaled u s a e) (a c : Fin 3) :
    Host.dotGeneral (F := Ideal) dot_S2x1048576x3x3_S2x1048576x3x3_S2x1048576x3x3_3_3_2_2_01_01 none M M (ix4 b n a c)
      = Cert.Gauss.cov u s a c := by
  rw [dot_apply]
  exact Finset.sum_congr rfl fun e _ => by rw [hM, hM]

set_option maxRecDepth 16384 in
set_option maxHeartbeats 8000000 in
/-- The covariances. -/
theorem v100_eq (V : Valuation τ sig (Elt Ideal)) :
    after (ops (F := Ideal)) V (main_v100 : DevRef τ sig) = Cert.Gauss.covArr (V (main_arg2 : DevRef τ sig)) := by
  walkc
  generalize V (main_arg2 : DevRef τ sig) = x
  funext y
  obtain ⟨b, n, a, c, rfl⟩ : ∃ (b : Fin 2) (n : Fin 1048576) (a c : Fin 3), y = ix4 b n a c := ⟨y 0, y 1, y 2, y 3, eq_ix4 y⟩
  rw [Cert.Gauss.covArr_ix]
  refine cov_of_rows _ (Cert.Gauss.quatAt x b n) (Cert.Gauss.scaleAt x b n) b n (fun a e => ?_) a c
  have h0 : _ = Cert.Gauss.quatAt x b n 0 := (comp0_apply _ b n).trans (congrFun (quat_read x) (ix3 b n (0 : Fin 4)))
  have h1 : _ = Cert.Gauss.quatAt x b n 1 := (comp1_apply _ b n).trans (congrFun (quat_read x) (ix3 b n (1 : Fin 4)))
  have h2 : _ = Cert.Gauss.quatAt x b n 2 := (comp2_apply _ b n).trans (congrFun (quat_read x) (ix3 b n (2 : Fin 4)))
  have h3 : _ = Cert.Gauss.quatAt x b n 3 := (comp3_apply _ b n).trans (congrFun (quat_read x) (ix3 b n (3 : Fin 4)))
  refine (mulf_apply _ _ _).trans (congrArg₂ (· * ·) ((stack_cat_apply _ _ _ b n a e).trans ?_)
    ((scaleBcast_apply _ b n a e).trans (congrFun (scale_read x) (ix3 b n e))))
  refine pick3 _ _ _ (fun a' => Cert.Gauss.rot (Cert.Gauss.quatAt x b n 0) (Cert.Gauss.quatAt x b n 1) (Cert.Gauss.quatAt x b n 2) (Cert.Gauss.quatAt x b n 3) a' e) ?_ ?_ ?_ a
  · refine (row_cat_apply _ _ _ b n e).trans (pick3 _ _ _ (fun e' => Cert.Gauss.rot (Cert.Gauss.quatAt x b n 0) (Cert.Gauss.quatAt x b n 1) (Cert.Gauss.quatAt x b n 2) (Cert.Gauss.quatAt x b n 3) 0 e') ?_ ?_ ?_ e)
    · refine entD _ _ _ _ _ ?_ ?_
      · exact h2
      · exact h3
    · refine entM _ _ _ _ _ _ _ _ _ ?_ ?_ ?_ ?_
      · exact h1
      · exact h2
      · exact h3
      · exact h0
    · refine entP _ _ _ _ _ _ _ _ _ ?_ ?_ ?_ ?_
      · exact h1
      · exact h3
      · exact h2
      · exact h0
  · refine (row_cat_apply _ _ _ b n e).trans (pick3 _ _ _ (fun e' => Cert.Gauss.rot (Cert.Gauss.quatAt x b n 0) (Cert.Gauss.quatAt x b n 1) (Cert.Gauss.quatAt x b n 2) (Cert.Gauss.quatAt x b n 3) 1 e') ?_ ?_ ?_ e)
    · refine entP _ _ _ _ _ _ _ _ _ ?_ ?_ ?_ ?_
      · exact h1
      · exact h2
      · exact h3
      · exact h0
    · refine entD _ _ _ _ _ ?_ ?_
      · exact h1
      · exact h3
    · refine entM _ _ _ _ _ _ _ _ _ ?_ ?_ ?_ ?_
      · exact h2
      · exact h3
      · exact h1
      · exact h0
  · refine (row_cat_apply _ _ _ b n e).trans (pick3 _ _ _ (fun e' => Cert.Gauss.rot (Cert.Gauss.quatAt x b n 0) (Cert.Gauss.quatAt x b n 1) (Cert.Gauss.quatAt x b n 2) (Cert.Gauss.quatAt x b n 3) 2 e') ?_ ?_ ?_ e)
    · refine entM _ _ _ _ _ _ _ _ _ ?_ ?_ ?_ ?_
      · exact h1
      · exact h3
      · exact h2
      · exact h0
    · refine entP _ _ _ _ _ _ _ _ _ ?_ ?_ ?_ ?_
      · exact h2
      · exact h3
      · exact h1
      · exact h0
    · refine entD _ _ _ _ _ ?_ ?_
      · exact h1
      · exact h2

end Cert.ReferenceIdeal.Hand

end
-- ==== Proof.RefRead.lean ====
/-
  The reference program's run, read: every weakly fair execution terminates with the covariance, scale, quaternion and
  harmonics buffers at the specification's arrays of the raw argument, and the three arguments unchanged.
-/
import proofs.«164973_j38001870635883_2_alg».proof.Proof.RefRun
import proofs.«164973_j38001870635883_2_alg».proof.Proof.RefReadA
import proofs.«164973_j38001870635883_2_alg».proof.Proof.RefReadCov

noncomputable section

namespace Cert.ReferenceIdeal.Hand

open Cert.ReferenceIdeal Cert.ReferenceIdeal.Gen Idealize.ShloMosaic Idealize.ShloMosaic.TcCoe Idealize.SL.Sem Idealize.ShloMosaic.StableHlo

/-- On every device, from any memory with zero counters: every weakly fair execution of the reference terminates with
    each result at the specification's array of the raw argument, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v100) = Cert.Gauss.covArr (m ((c.tc : Thread nD τ).loc main_arg2))
      ∧ r.2.mem ((c.tc : Thread nD τ).loc main_v12) = Cert.Gauss.scaleArr (m ((c.tc : Thread nD τ).loc main_arg2))
      ∧ r.2.mem ((c.tc : Thread nD τ).loc main_v17) = Cert.Gauss.quatArr (m ((c.tc : Thread nD τ).loc main_arg2))
      ∧ r.2.mem ((c.tc : Thread nD τ).loc main_v21) = Cert.Gauss.shArr (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v100).trans (v100_eq _), (h c main_v12).trans (v12_eq _),
      (h c main_v17).trans (v17_eq _), (h c main_v21).trans (v21_eq _), (h c main_arg0).trans (arg0_eq _),
      (h c main_arg1).trans (arg1_eq _), (h c main_arg2).trans (arg2_eq _)⟩)
    (run_main m ρ)

end Cert.ReferenceIdeal.Hand

end
-- ==== Proof.lean ====
/-
  A Gaussian adapter: for each of 2 × 1048576 points, 82 raw numbers become a covariance, three scales, a unit
  quaternion and 75 masked harmonics.

  The kernel program views the input flat, as 2097152 rows of 82, and works on blocks of 4096 rows.  It transposes
  the seven leading channels of a block so that each is a row of lanes, squashes the three raw scales by
  0.5 + 14.5 · σ, divides the raw quaternion by its length plus a small constant, builds the nine entries of the
  rotation, scales its columns and writes out the six distinct entries of M · Mᵀ (three of them twice), the scales
  and the quaternion as sixteen rows, transposes them back into a [4096, 16] block, and multiplies channels 7 … 81 by
  a mask row.  After the grid the sixteen columns are cut into three arrays and everything is viewed per point again.
  The reference program computes the same quantities array by array: σ as 1 / (1 + e^(−x)), the length as the square
  root of a sum over the last axis, the rotation by stacking rows, and M · Mᵀ as a batched product contracting the
  column index.

  On the extended reals both are the same function of the raw array, entry by entry (GaussSpec): σ is the same
  expression, a four-term sum from zero is the four-term sum, the product contracting the column index is the sum over
  the three columns that the kernel spells out, and the below-diagonal entries agree because the product of two
  extended reals commutes.  No distributive law is used, so the precondition is never opened.  The kernel program's
  side is KernelRows / KernelCols (one block), KernelBlocks (all blocks) and KernelHost (around the grid); the
  reference program's side is RefRun (its run) and RefRead… (its results, entry by entry).
-/
import proofs.«164973_j38001870635883_2_alg».proof.Defs
import proofs.«164973_j38001870635883_2_alg».proof.Proof.Gen.Kernel
import proofs.«164973_j38001870635883_2_alg».proof.Proof.Gen.Kernel.Frame
import proofs.«164973_j38001870635883_2_alg».proof.Proof.Gen.KernelIdeal
import proofs.«164973_j38001870635883_2_alg».proof.Proof.Gen.KernelIdeal.Frame
import proofs.«164973_j38001870635883_2_alg».proof.Proof.Gen.ReferenceIdeal
import proofs.«164973_j38001870635883_2_alg».proof.Proof.Gen.Pre_finite_inputs
import proofs.«164973_j38001870635883_2_alg».proof.Proof.KernelHost
import proofs.«164973_j38001870635883_2_alg».proof.Proof.RefRead
import Idealize.ShloMosaic.Adequacy
import Idealize.ShloMosaic.Init

noncomputable section

namespace Cert.Proof

open Idealize.ShloMosaic Idealize.SL.Sem Cert.Gauss

/-- The word-level kernel program runs, faults nowhere and leaves its arguments as launched. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference program's run, with what it computes forgotten. -/
theorem frame_referenceIdeal : Cert.frame_ReferenceIdeal := fun m ρ _ =>
  (θ_run Cert.ReferenceIdeal.defs _ _).mono (fun _ h c => ⟨(h c).2.2.2.2.1, (h c).2.2.2.2.2.1, (h c).2.2.2.2.2.2⟩)
    (Cert.ReferenceIdeal.Hand.run m ρ)

/-- Nothing of the kernel program was rewritten for the reading on the extended reals. -/
theorem preserves : Cert.preserves_Kernel_KernelIdeal := trivial

/-- From memories that agree on the raw array, both programs end with the covariances, scales, unit quaternions and
    masked harmonics at the specification's arrays of that raw array; the means and the opacities pass through. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => covArr (m ((c.tc : Thread Cert.KernelIdeal.nD Cert.KernelIdeal.τ).loc Cert.KernelIdeal.main_arg2)),
    fun c => scaleArr (m ((c.tc : Thread Cert.KernelIdeal.nD Cert.KernelIdeal.τ).loc Cert.KernelIdeal.main_arg2)),
    fun c => quatArr (m ((c.tc : Thread Cert.KernelIdeal.nD Cert.KernelIdeal.τ).loc Cert.KernelIdeal.main_arg2)),
    fun c => shArr (m ((c.tc : Thread Cert.KernelIdeal.nD Cert.KernelIdeal.τ).loc Cert.KernelIdeal.main_arg2)),
    fun c => m ((c.tc : Thread Cert.KernelIdeal.nD Cert.KernelIdeal.τ).loc Cert.KernelIdeal.main_arg1), ?_, ?_⟩
  · refine (θ_run Cert.KernelIdeal.defs _ _).mono (fun _ h c => ?_) (Cert.KernelIdeal.Host.run m ρ)
    obtain ⟨h5, h6, h7, h8, h0, h1, h2⟩ := h c
    exact ⟨h0, h5, h6, h7, h8, h1, h0, h1, h2⟩
  · refine (θ_run Cert.ReferenceIdeal.defs _ _).mono (fun _ h c => ?_) (Cert.ReferenceIdeal.Hand.run m' ρ')
    obtain ⟨h100, h12, h17, h21, h0, h1, h2⟩ := h c
    obtain ⟨a0, a1, a2⟩ := hagree c
    exact ⟨h0.trans a0, h100.trans (congrArg covArr a2), h12.trans (congrArg scaleArr a2), h17.trans (congrArg quatArr a2),
      h21.trans (congrArg shArr a2), h1.trans a1, h0, h1, h2⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
